-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x128 : Shape := ⟨2, ![5000, 128]⟩
abbrev S5000x1 : Shape := ⟨2, ![5000, 1]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 82
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x128, .bf16⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000x128, .bf16⟩
  | .hbm, ⟨43, _⟩ => ⟨S1700000x128, .f32⟩
  | .hbm, ⟨44, _⟩ => ⟨S_, .f32⟩
  | .hbm, ⟨45, _⟩ => ⟨S100000x128, .f32⟩
  | .hbm, ⟨46, _⟩ => ⟨S1700000x1, .i32⟩
  | .hbm, ⟨47, _⟩ => ⟨S100000x128, .f32⟩
  | .hbm, ⟨48, _⟩ => ⟨S1x128, .f32⟩
  | .hbm, ⟨49, _⟩ => ⟨S100000x128, .bf16⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .bf16⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x64, .bf16⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x64, .bf16⟩
  | .hbm, ⟨75, _⟩ => ⟨S1700000x64, .f32⟩
  | .hbm, ⟨76, _⟩ => ⟨S_, .f32⟩
  | .hbm, ⟨77, _⟩ => ⟨S100000x64, .f32⟩
  | .hbm, ⟨78, _⟩ => ⟨S1700000x1, .i32⟩
  | .hbm, ⟨79, _⟩ => ⟨S100000x64, .f32⟩
  | .hbm, ⟨80, _⟩ => ⟨S1x64, .f32⟩
  | .hbm, ⟨81, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .f32⟩
  | .local _ .vmem, ⟨13, _⟩ => ⟨S5000x128, .bf16⟩
  | .local _ .vmem, ⟨14, _⟩ => ⟨S5000x128, .bf16⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S1x128, .f32⟩
  | .local _ .vmem, ⟨20, _⟩ => ⟨S128x64, .f32⟩
  | .local _ .vmem, ⟨21, _⟩ => ⟨S5000x64, .bf16⟩
  | .local _ .vmem, ⟨22, _⟩ => ⟨S5000x64, .bf16⟩
  | .local _ .vmem, ⟨23, _⟩ => ⟨S5000x64, .f32⟩
  | .local _ .vmem, ⟨24, _⟩ => ⟨S5000x64, .f32⟩
  | .local _ .vmem, ⟨25, _⟩ => ⟨S5000x1, .f32⟩
  | .local _ .vmem, ⟨26, _⟩ => ⟨S5000x1, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_9 : Ref sig .tc := ⟨.hbm, 66, rfl⟩
abbrev main_v45 : Ref sig .tc := ⟨.hbm, 67, rfl⟩
abbrev main_v46 : Ref sig .tc := ⟨.hbm, 68, rfl⟩
abbrev main_c_10 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  packedbf16_S5000x128_S5000x128_0_0 : (Rect.unit (s := S5000x128) ![0, 0] S5000x128.size inb_S5000x128_S5000x128_0_0).PackedRows (EltTy.packing .bf16)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .bf16 = 32 ∨ (Rect.block (s := S100000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .bf16 = 32 ∨ (Rect.block (s := S100000x128) S5000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .bf16 = 32 ∨ (Rect.block (s := S100000x64) S5000x64.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v43) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v55) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v56) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 203
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S100000x128, .f32⟩
  | 9 => ⟨S100000, .i32⟩
  | 10 => ⟨S1x1600000, .i32⟩
  | 11 => ⟨S1600000, .i32⟩
  | 12 => ⟨S1700000, .i32⟩
  | 13 => ⟨S1x1600000, .i32⟩
  | 14 => ⟨S1600000, .i32⟩
  | 15 => ⟨S1700000, .i32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S_, .f32⟩
  | 26 => ⟨S100000, .f32⟩
  | 27 => ⟨S100000, .f32⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x128, .f32⟩
  | 61 => ⟨S1700000x1, .f32⟩
  | 62 => ⟨S1700000x128, .f32⟩
  | 63 => ⟨S1700000x128, .f32⟩
  | 64 => ⟨S_, .f32⟩
  | 65 => ⟨S100000x128, .f32⟩
  | 66 => ⟨S1700000x1, .i32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000x128, .f32⟩
  | 75 => ⟨S100000, .i32⟩
  | 76 => ⟨S1x1600000, .i32⟩
  | 77 => ⟨S1600000, .i32⟩
  | 78 => ⟨S1700000, .i32⟩
  | 79 => ⟨S1x1600000, .i32⟩
  | 80 => ⟨S1600000, .i32⟩
  | 81 => ⟨S1700000, .i32⟩
  | 82 => ⟨S_, .f32⟩
  | 83 => ⟨S1700000, .f32⟩
  | 84 => ⟨S_, .f32⟩
  | 85 => ⟨S100000, .f32⟩
  | 86 => ⟨S1700000x1, .i32⟩
  | 87 => ⟨S100000, .f32⟩
  | 88 => ⟨S_, .f32⟩
  | 89 => ⟨S100000, .f32⟩
  | 90 => ⟨S100000, .i1⟩
  | 91 => ⟨S_, .f32⟩
  | 92 => ⟨S100000, .f32⟩
  | 93 => ⟨S100000, .f32⟩
  | 94 => ⟨S100000, .f32⟩
  | 95 => ⟨S_, .f32⟩
  | 96 => ⟨S_, .f32⟩
  | 97 => ⟨S100000, .f32⟩
  | 98 => ⟨S100000, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000, .f32⟩
  | 108 => ⟨S_, .i32⟩
  | 109 => ⟨S1700000, .i32⟩
  | 110 => ⟨S1700000, .i1⟩
  | 111 => ⟨S_, .i32⟩
  | 112 => ⟨S1700000, .i32⟩
  | 113 => ⟨S1700000, .i32⟩
  | 114 => ⟨S1700000, .i32⟩
  | 115 => ⟨S1700000x1, .i32⟩
  | 116 => ⟨S1700000, .f32⟩
  | 117 => ⟨S1700000, .f32⟩
  | 118 => ⟨S_, .i32⟩
  | 119 => ⟨S1700000, .i32⟩
  | 120 => ⟨S1700000, .i1⟩
  | 121 => ⟨S_, .i32⟩
  | 122 => ⟨S1700000, .i32⟩
  | 123 => ⟨S1700000, .i32⟩
  | 124 => ⟨S1700000, .i32⟩
  | 125 => ⟨S1700000x1, .i32⟩
  | 126 => ⟨S1700000x128, .f32⟩
  | 127 => ⟨S1700000x1, .f32⟩
  | _ => ⟨S100000x128, .f32⟩

abbrev hbmTy0_1 (i : Nat) : BufTy := match i % 128 with
  | 0 => ⟨S1700000x128, .f32⟩
  | 1 => ⟨S1700000x128, .f32⟩
  | 2 => ⟨S_, .f32⟩
  | 3 => ⟨S100000x128, .f32⟩
  | 4 => ⟨S1700000x1, .i32⟩
  | 5 => ⟨S100000x128, .f32⟩
  | 6 => ⟨S1x128, .f32⟩
  | 7 => ⟨S100000x128, .f32⟩
  | 8 => ⟨S100000x128, .f32⟩
  | 9 => ⟨S_, .f32⟩
  | 10 => ⟨S100000x128, .f32⟩
  | 11 => ⟨S100000x128, .f32⟩
  | 12 => ⟨S100000x64, .f32⟩
  | 13 => ⟨S100000, .i32⟩
  | 14 => ⟨S1x1600000, .i32⟩
  | 15 => ⟨S1600000, .i32⟩
  | 16 => ⟨S1700000, .i32⟩
  | 17 => ⟨S1x1600000, .i32⟩
  | 18 => ⟨S1600000, .i32⟩
  | 19 => ⟨S1700000, .i32⟩
  | 20 => ⟨S_, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S_, .f32⟩
  | 27 => ⟨S100000, .f32⟩
  | 28 => ⟨S100000, .i1⟩
  | 29 => ⟨S_, .f32⟩
  | 30 => ⟨S100000, .f32⟩
  | 31 => ⟨S100000, .f32⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000, .f32⟩
  | 55 => ⟨S1700000, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000x64, .f32⟩
  | 65 => ⟨S1700000x1, .f32⟩
  | 66 => ⟨S1700000x64, .f32⟩
  | 67 => ⟨S1700000x64, .f32⟩
  | 68 => ⟨S_, .f32⟩
  | 69 => ⟨S100000x64, .f32⟩
  | 70 => ⟨S1700000x1, .i32⟩
  | 71 => ⟨S100000x64, .f32⟩
  | 72 => ⟨S1x64, .f32⟩
  | 73 => ⟨S100000x64, .f32⟩
  | 74 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_10 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_12 : Ref sig .tc := ⟨.hbm, 88, rfl⟩
abbrev main_v62 : Ref sig .tc := ⟨.hbm, 89, rfl⟩
abbrev main_v63 : Ref sig .tc := ⟨.hbm, 90, rfl⟩
abbrev main_cst_13 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_14 : Ref sig .tc := ⟨.hbm, 95, rfl⟩
abbrev main_call2_v0 : Ref sig .tc := ⟨.hbm, 96, rfl⟩
abbrev main_call2_v1 : Ref sig .tc := ⟨.hbm, 97, rfl⟩
abbrev main_v67 : Ref sig .tc := ⟨.hbm, 98, rfl⟩
abbrev main_c_15 : Ref sig .tc := ⟨.hbm, 99, rfl⟩
abbrev main_v68 : Ref sig .tc := ⟨.hbm, 100, rfl⟩
abbrev main_v69 : Ref sig .tc := ⟨.hbm, 101, rfl⟩
abbrev main_c_16 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_17 : Ref sig .tc := ⟨.hbm, 108, rfl⟩
abbrev main_v75 : Ref sig .tc := ⟨.hbm, 109, rfl⟩
abbrev main_v76 : Ref sig .tc := ⟨.hbm, 110, rfl⟩
abbrev main_c_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_c_19 : Ref sig .tc := ⟨.hbm, 118, rfl⟩
abbrev main_v83 : Ref sig .tc := ⟨.hbm, 119, rfl⟩
abbrev main_v84 : Ref sig .tc := ⟨.hbm, 120, rfl⟩
abbrev main_c_20 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_21 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_call3_cst : Ref sig .tc := ⟨.hbm, 137, rfl⟩
abbrev main_call3_v0 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_cst_22 : Ref sig .tc := ⟨.hbm, 148, rfl⟩
abbrev main_v108 : Ref sig .tc := ⟨.hbm, 149, rfl⟩
abbrev main_cst_23 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_cst_24 : Ref sig .tc := ⟨.hbm, 154, rfl⟩
abbrev main_v112 : Ref sig .tc := ⟨.hbm, 155, rfl⟩
abbrev main_v113 : Ref sig .tc := ⟨.hbm, 156, rfl⟩
abbrev main_cst_25 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_cst_26 : Ref sig .tc := ⟨.hbm, 161, rfl⟩
abbrev main_call4_v0 : Ref sig .tc := ⟨.hbm, 162, rfl⟩
abbrev main_call4_v1 : Ref sig .tc := ⟨.hbm, 163, rfl⟩
abbrev main_v117 : Ref sig .tc := ⟨.hbm, 164, rfl⟩
abbrev main_c_27 : Ref sig .tc := ⟨.hbm, 165, rfl⟩
abbrev main_v118 : Ref sig .tc := ⟨.hbm, 166, rfl⟩
abbrev main_v119 : Ref sig .tc := ⟨.hbm, 167, rfl⟩
abbrev main_c_28 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_c_29 : Ref sig .tc := ⟨.hbm, 174, rfl⟩
abbrev main_v125 : Ref sig .tc := ⟨.hbm, 175, rfl⟩
abbrev main_v126 : Ref sig .tc := ⟨.hbm, 176, rfl⟩
abbrev main_c_30 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_c_31 : Ref sig .tc := ⟨.hbm, 184, rfl⟩
abbrev main_v133 : Ref sig .tc := ⟨.hbm, 185, rfl⟩
abbrev main_v134 : Ref sig .tc := ⟨.hbm, 186, rfl⟩
abbrev main_c_32 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_cst_33 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.LibScatter.lean ====
/-
  An accumulating scatter of rows, read at an entry, on the extended reals.

  The scatter adds row `e` of the updates into row `idx e` of the operand (the row index read as a signed integer;
  a row index outside the operand drops the update). So entry `(n, f)` of the result is the operand's entry plus the
  sum, over the update rows `e` whose index is `n`, of the updates' entry `(e, f)`. The same for a scatter of
  scalars into a vector. Every update element lands in its own column, so the sum over the update elements that
  land on `(n, f)` collapses to a sum over the update rows.
-/
import Idealize.ShloMosaic.PureOps.Ideal
import Idealize.ShloMosaic.PureOps.Ideal.Laws
import Idealize.ShloMosaic.Lib.ValueIdx

noncomputable section

namespace Cert.LibScatter

open Idealize.ShloMosaic Idealize.ShloMosaic.ValueIdx

/-- The dimension numbers of a scatter of `E` rows of `C` columns into an `[N, C]` operand, one row index per update row. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

theorem rowDims_start0 (idx : IVec ⟨2, ![E, 1]⟩ w) (e : Fin E) (f : Fin C) :
    (rowDims N E C wf).start (ix2 e f) idx 0 = (idx (ix2 e (0 : Fin 1))).toInt := by
  unfold ScatterDims.start
  rw [dif_pos (show (0 : Fin 2) ∈ (rowDims N E C wf).scatterDimsToOperandDims from List.mem_singleton.mpr rfl)]
  congr 2
  funext b; refine Fin.ext ?_
  match b with
  | ⟨0, _⟩ => rfl
  | ⟨1, _⟩ => rfl

theorem rowDims_start1 (idx : IVec ⟨2, ![E, 1]⟩ w) (j : (⟨2, ![E, C]⟩ : Shape).Idx) :
    (rowDims N E C wf).start j idx 1 = 0 := by
  unfold ScatterDims.start
  rw [dif_neg (show (1 : Fin 2) ∉ ([0] : List (Fin 2)) by decide)]

theorem rowDims_window0 (j : (⟨2, ![E, C]⟩ : Shape).Idx) : (rowDims N E C wf).window j 0 = 0 := by
  unfold ScatterDims.window
  have h : (0 : Fin 2) ∉ (rowDims N E C wf).sKept := by
    show (0 : Fin 2) ∉ (List.finRange 2).filter (· ∉ ([0] : List (Fin 2)))
    decide
  rw [dif_neg h]

theorem rowDims_window1 (j : (⟨2, ![E, C]⟩ : Shape).Idx) : (rowDims N E C wf).window j 1 = (j 1).val := by
  unfold ScatterDims.window
  have h : (1 : Fin 2) ∈ (rowDims N E C wf).sKept := by
    show (1 : Fin 2) ∈ (List.finRange 2).filter (· ∉ ([0] : List (Fin 2)))
    decide
  rw [dif_pos h]
  rfl

/-- Update element `(e, f)` lands on `(n, f')` exactly when row `e`'s index is `n` and the columns agree. -/
theorem rowDims_resultIdx_iff (idx : IVec ⟨2, ![E, 1]⟩ w) (e : Fin E) (f f' : Fin C) (n : Fin N) :
    (rowDims N E C wf).resultIdx? (ix2 e f) idx = some (ix2 n f')
      ↔ (idx (ix2 e (0 : Fin 1))).toInt = (n.val : Int) ∧ f = f' := by
  unfold ScatterDims.resultIdx?
  split
  · next h =>
    rw [Option.some.injEq]
    constructor
    · intro hEq
      have h0 := congrArg (fun i : (⟨2, ![N, C]⟩ : Shape).Idx => (i 0).val) hEq
      have h1 := congrArg (fun i : (⟨2, ![N, C]⟩ : Shape).Idx => (i 1).val) hEq
      simp only [rowDims_start0, rowDims_start1, rowDims_window0, rowDims_window1] at h0 h1
      have g0 := (h 0).1
      rw [rowDims_start0, rowDims_window0] at g0
      refine ⟨?_, Fin.ext ?_⟩
      · change ((idx (ix2 e (0 : Fin 1))).toInt + ((0 : Nat) : Int)).toNat = n.val at h0
        omega
      · change (((0 : Int)) + (((f.val : Nat)) : Int)).toNat = f'.val at h1
        omega
    · rintro ⟨hi, rfl⟩
      funext a; refine Fin.ext ?_
      match a with
      | ⟨0, _⟩ =>
        show ((rowDims N E C wf).start (ix2 e f) idx 0 + ((rowDims N E C wf).window (ix2 e f) 0 : Nat)).toNat = n.val
        rw [rowDims_start0, rowDims_window0, hi]; omega
      | ⟨1, _⟩ =>
        show ((rowDims N E C wf).start (ix2 e f) idx 1 + ((rowDims N E C wf).window (ix2 e f) 1 : Nat)).toNat = f.val
        rw [rowDims_start1, rowDims_window1]; show ((0 : Int) + (f.val : Int)).toNat = f.val; omega
  · next h =>
    constructor
    · intro hh; exact absurd hh (by simp)
    · rintro ⟨hi, rfl⟩
      exfalso; apply h
      intro a
      match a with
      | ⟨0, _⟩ =>
        show 0 ≤ (rowDims N E C wf).start (ix2 e f) idx 0 + ((rowDims N E C wf).window (ix2 e f) 0 : Nat) ∧ (rowDims N E C wf).start (ix2 e f) idx 0 + ((rowDims N E C wf).window (ix2 e f) 0 : Nat) < (N : Int)
        rw [rowDims_start0, rowDims_window0, hi]; have := n.isLt; omega
      | ⟨1, _⟩ =>
        show 0 ≤ (rowDims N E C wf).start (ix2 e f) idx 1 + ((rowDims N E C wf).window (ix2 e f) 1 : Nat) ∧ (rowDims N E C wf).start (ix2 e f) idx 1 + ((rowDims N E C wf).window (ix2 e f) 1 : Nat) < (C : Int)
        rw [rowDims_start1, rowDims_window1]; have := f.isLt; show 0 ≤ (0 : Int) + (f.val : Int) ∧ (0 : Int) + (f.val : Int) < C; omega

/-- THE ROW SCATTER READ AT `(n, f)`: the operand's entry plus the sum over the update rows whose index is `n` of their entry in column `f`. -/
theorem scatterAdd_rows_apply {φ : FTy} (x : FVec Ideal ⟨2, ![N, C]⟩ φ) (idx : IVec ⟨2, ![E, 1]⟩ w)
    (upd : FVec Ideal ⟨2, ![E, C]⟩ φ) (n : Fin N) (f : Fin C) :
    Host.scatterAdd (F := Ideal) (rowDims N E C wf) x idx upd (ix2 n f)
      = x (ix2 n f) + ∑ e : Fin E, if (idx (ix2 e (0 : Fin 1))).toInt = (n.val : Int) then upd (ix2 e f) else 0 := by
  show x (ix2 n f) + ∑ j ∈ Finset.univ.filter (fun j => (rowDims N E C wf).resultIdx? j idx = some (ix2 n f)), upd j = _
  congr 1
  rw [Finset.sum_filter, sum_idx2]
  refine Finset.sum_congr rfl fun e _ => ?_
  simp only [rowDims_resultIdx_iff]
  by_cases hA : (idx (ix2 e (0 : Fin 1))).toInt = (n.val : Int)
  · simp [hA]
  · simp [hA]

/-! ## A scatter of scalars into a vector -/

/-- The dimension numbers of a scatter of `E` scalars into an `[N]` operand, one index per update. -/
abbrev cntDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable (wf1 : ScatterDims.WF ⟨1, ![N]⟩ ⟨2, ![E, 1]⟩ ⟨1, ![E]⟩ [] [0] [0] 1)

theorem cntDims_start0 (idx : IVec ⟨2, ![E, 1]⟩ w) (e : Fin E) :
    (cntDims N E wf1).start (ix1 e) idx 0 = (idx (ix2 e (0 : Fin 1))).toInt := by
  unfold ScatterDims.start
  rw [dif_pos (show (0 : Fin 1) ∈ (cntDims N E wf1).scatterDimsToOperandDims from List.mem_singleton.mpr rfl)]
  congr 2
  funext b; refine Fin.ext ?_
  match b with
  | ⟨0, _⟩ => rfl
  | ⟨1, _⟩ => rfl

theorem cntDims_window0 (j : (⟨1, ![E]⟩ : Shape).Idx) : (cntDims N E wf1).window j 0 = 0 := by
  unfold ScatterDims.window
  have h : (0 : Fin 1) ∉ (cntDims N E wf1).sKept := by
    show (0 : Fin 1) ∉ (List.finRange 1).filter (· ∉ ([0] : List (Fin 1)))
    decide
  rw [dif_neg h]

/-- Update `e` lands on `n` exactly when its index is `n`. -/
theorem cntDims_resultIdx_iff (idx : IVec ⟨2, ![E, 1]⟩ w) (e : Fin E) (n : Fin N) :
    (cntDims N E wf1).resultIdx? (ix1 e) idx = some (ix1 n) ↔ (idx (ix2 e (0 : Fin 1))).toInt = (n.val : Int) := by
  unfold ScatterDims.resultIdx?
  split
  · next h =>
    rw [Option.some.injEq]
    constructor
    · intro hEq
      have h0 := congrArg (fun i : (⟨1, ![N]⟩ : Shape).Idx => (i 0).val) hEq
      simp only [cntDims_start0, cntDims_window0] at h0
      have g0 := (h 0).1
      rw [cntDims_start0, cntDims_window0] at g0
      change ((idx (ix2 e (0 : Fin 1))).toInt + ((0 : Nat) : Int)).toNat = n.val at h0
      omega
    · intro hi
      funext a; refine Fin.ext ?_
      match a with
      | ⟨0, _⟩ =>
        show ((cntDims N E wf1).start (ix1 e) idx 0 + ((cntDims N E wf1).window (ix1 e) 0 : Nat)).toNat = n.val
        rw [cntDims_start0, cntDims_window0, hi]; omega
  · next h =>
    constructor
    · intro hh; exact absurd hh (by simp)
    · intro hi
      exfalso; apply h
      intro a
      match a with
      | ⟨0, _⟩ =>
        show 0 ≤ (cntDims N E wf1).start (ix1 e) idx 0 + ((cntDims N E wf1).window (ix1 e) 0 : Nat) ∧ (cntDims N E wf1).start (ix1 e) idx 0 + ((cntDims N E wf1).window (ix1 e) 0 : Nat) < (N : Int)
        rw [cntDims_start0, cntDims_window0, hi]; have := n.isLt; omega

/-- THE SCALAR SCATTER READ AT `n`: the operand's entry plus the sum of the updates whose index is `n`. -/
theorem scatterAdd_cnt_apply {φ : FTy} (x : FVec Ideal ⟨1, ![N]⟩ φ) (idx : IVec ⟨2, ![E, 1]⟩ w)
    (upd : FVec Ideal ⟨1, ![E]⟩ φ) (n : Fin N) :
    Host.scatterAdd (F := Ideal) (cntDims N E wf1) x idx upd (ix1 n)
      = x (ix1 n) + ∑ e : Fin E, if (idx (ix2 e (0 : Fin 1))).toInt = (n.val : Int) then upd (ix1 e) else 0 := by
  show x (ix1 n) + ∑ j ∈ Finset.univ.filter (fun j => (cntDims N E wf1).resultIdx? j idx = some (ix1 n)), upd j = _
  congr 1
  rw [Finset.sum_filter]
  refine Fintype.sum_equiv ⟨fun j => j 0, fun e => ix1 e, fun j => (eq_ix1 j).symm, fun _ => rfl⟩ _ _ fun j => ?_
  obtain ⟨e, rfl⟩ : ∃ e : Fin E, j = ix1 e := ⟨j 0, eq_ix1 j⟩
  show (if (cntDims N E wf1).resultIdx? (ix1 e) idx = some (ix1 n) then upd (ix1 e) else 0)
    = if (idx (ix2 e (0 : Fin 1))).toInt = (n.val : Int) then upd (ix1 e) else 0
  simp only [cntDims_resultIdx_iff]

end Cert.LibScatter

end
-- ==== Proof.LibRowGather.lean ====
/-
  A gather of whole rows, and of scalars, by one start index per result row, read at an entry.

  Row gather: the operand is an [N, C] array, the start indices an [E, 1] column of words; result entry (e, f) is the
  operand's entry (r, f), where r is the start index of row e read as a signed integer and clamped into [0, N - 1].
  Scalar gather: the same out of an [N] vector: result entry e is the operand's entry r.
-/
import Idealize.ShloMosaic.PureOps
import Idealize.ShloMosaic.Lib.ValueIdx

noncomputable section

namespace Cert.LibRowGather

open Idealize.ShloMosaic Idealize.ShloMosaic.ValueIdx

variable {α : Type}

/-- A start index read as a signed integer and clamped into an axis of extent N. -/
def clampIdx {w : Nat} (v : BitVec w) (N : Nat) : Nat := min v.toInt.toNat (N - 1)

theorem clampIdx_lt {w : Nat} (v : BitVec w) {N : Nat} (hN : 0 < N) : clampIdx v N < N := by
  unfold clampIdx; omega

/-- A start index that, read signed, is the natural number n below N clamps to n. -/
theorem clampIdx_of_toInt {w : Nat} (v : BitVec w) {N n : Nat} (hn : n < N) (h : v.toInt = (n : Int)) : clampIdx v N = n := by
  unfold clampIdx; rw [h, Int.toNat_natCast]; omega

/-- The dimension numbers of a gather of rows of an [N, C] operand by an [E, 1] column of start indices. -/
abbrev rowsDims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

theorem siIdx_rows {N E C : Nat} (wf : GatherDims.WF ⟨2, ![N, C]⟩ ⟨2, ![E, 1]⟩ ⟨2, ![E, C]⟩ [1] [0] [] [0] [] 1 ![1, C])
    (e : Fin E) (f : Fin C) (hk : (0 : Nat) < (rowsDims N E C wf).startIndexMap.length) :
    (rowsDims N E C wf).siIdx (ix2 e f) ⟨0, hk⟩ = ix2 e (0 : Fin 1) := by
  funext j; refine Fin.ext ?_
  match j with
  | ⟨0, _⟩ => rfl
  | ⟨1, _⟩ => rfl

/-- THE ROW GATHER READ AT (e, f): the operand at (the clamped start index of row e, f). -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowsDims N E C wf) x idx (ix2 e f)
      = x (ix2 ⟨clampIdx (idx (ix2 e (0 : Fin 1))) N, clampIdx_lt _ hN⟩ f) := by
  unfold Host.gather
  congr 1
  funext ax
  refine Fin.ext ?_
  show (rowsDims N E C wf).start (ix2 e f) idx ax + (rowsDims N E C wf).batchCoord (ix2 e f) ax
    + (rowsDims N E C wf).offCoord (ix2 e f) ax = _
  rw [GatherDims.batchCoord_eq_zero _ _ _ List.not_mem_nil]
  simp only [Nat.add_zero]
  match ax with
  | ⟨0, h0⟩ =>
    have hmem : (⟨0, h0⟩ : Fin 2) ∈ ([0] : List (Fin 2)) := by simp
    rw [GatherDims.offCoord_eq_zero _ _ _ (fun h => ((GatherDims.mem_sKept _ _).mp h).1 hmem)]
    unfold GatherDims.start
    rw [dif_pos (show (⟨0, h0⟩ : Fin 2) ∈ (rowsDims N E C wf).startIndexMap from hmem)]
    show min (idx ((rowsDims N E C wf).siIdx (ix2 e f) ⟨0, (by show (0 : Nat) < 1; decide)⟩)).toInt.toNat _ + 0 = _
    rw [siIdx_rows wf e f]; rfl
  | ⟨1, h1⟩ =>
    have hnot : (⟨1, h1⟩ : Fin 2) ∉ (rowsDims N E C wf).startIndexMap := by simp
    unfold GatherDims.start
    rw [dif_neg hnot]
    show 0 + (rowsDims N E C wf).offCoord (ix2 e f) ⟨1, h1⟩ = f.val
    rw [Nat.zero_add]
    rfl

/-- The dimension numbers of a gather of scalars of an [N] operand by an [E, 1] column of start indices. -/
abbrev vecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

theorem siIdx_vec {N E : Nat} (wf : GatherDims.WF ⟨1, ![N]⟩ ⟨2, ![E, 1]⟩ ⟨1, ![E]⟩ [] [0] [] [0] [] 1 ![1])
    (e : Fin E) (hk : (0 : Nat) < (vecDims N E wf).startIndexMap.length) :
    (vecDims N E wf).siIdx (ix1 e) ⟨0, hk⟩ = ix2 e (0 : Fin 1) := by
  funext j; refine Fin.ext ?_
  match j with
  | ⟨0, _⟩ => rfl
  | ⟨1, _⟩ => rfl

/-- THE SCALAR GATHER READ AT e: the operand at the clamped start index of e. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e)
      = x (ix1 ⟨clampIdx (idx (ix2 e (0 : Fin 1))) N, clampIdx_lt _ hN⟩) := by
  unfold Host.gather
  congr 1
  funext ax
  obtain rfl : ax = 0 := Subsingleton.elim _ _
  refine Fin.ext ?_
  show (vecDims N E wf).start (ix1 e) idx 0 + (vecDims N E wf).batchCoord (ix1 e) 0 + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  show min (idx ((vecDims N E wf).siIdx (ix1 e) ⟨0, (by show (0 : Nat) < 1; decide)⟩)).toInt.toNat _ = _
  rw [siIdx_vec wf e]; rfl

end Cert.LibRowGather

end
-- ==== Proof.LibDot.lean ====
/-
  A plain matrix product read at an entry. For the dimension numbers "rows × contraction by contraction × columns"
  (`DotDims.plain M K N`) the sum over the contraction index, of the left operand at the dot's left index times the
  right operand at its right index, is the textbook sum `∑ i, l (p, i) · r (i, q)` at output entry `(p, q)`: the
  contraction shape has one axis of extent `K`, and the two operand indices at contraction position `i` are
  `(p, i)` and `(i, q)`. Both a `tpu.matmul` into a zero accumulator and a host `dot_general` are this sum at the
  exact values, so each reads at an entry as the textbook sum.
-/
import Idealize.ShloMosaic.PureOps.Ideal.Laws
import Idealize.ShloMosaic.Lib.ValueIdx

noncomputable section

namespace Cert.LibDot

open Idealize.ShloMosaic Idealize.ShloMosaic.ValueIdx

/-- The left index of a plain product at output `(p, q)` and contraction position `i` is `(p, i)`. -/
theorem plain_lhsIdx (M K N : Nat) (p : Fin M) (q : Fin N) (i : Fin K) :
    (DotDims.plain M K N).lhsIdx (ix2 p q) ((contrEquiv1 (DotDims.plain M K N) K rfl rfl).symm i) = ix2 p i := by
  funext a
  apply Fin.ext
  match a with
  | ⟨0, _⟩ => rfl
  | ⟨1, _⟩ =>
    refine ((DotDims.plain M K N).lhsIdx_val_of_single (cl := (1 : Fin 2)) rfl (ix2 p q) _).trans ?_
    exact contrEquiv1_symm_val (DotDims.plain M K N) K rfl rfl i

/-- The right index of a plain product at output `(p, q)` and contraction position `i` is `(i, q)`. -/
theorem plain_rhsIdx (M K N : Nat) (p : Fin M) (q : Fin N) (i : Fin K) :
    (DotDims.plain M K N).rhsIdx (ix2 p q) ((contrEquiv1 (DotDims.plain M K N) K rfl rfl).symm i) = ix2 i q := by
  funext a
  apply Fin.ext
  match a with
  | ⟨0, _⟩ =>
    refine ((DotDims.plain M K N).rhsIdx_val_of_single (cr := (0 : Fin 2)) rfl (ix2 p q) _).trans ?_
    exact contrEquiv1_symm_val (DotDims.plain M K N) K rfl rfl i
  | ⟨1, _⟩ => rfl

/-- The contraction sum of a plain product at output `(p, q)` is `∑ i, l (p, i) · r (i, q)`. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ i : Fin K, l (ix2 p i) * r (ix2 i q) := by
  rw [← Equiv.sum_comp (contrEquiv1 (DotDims.plain M K N) K rfl rfl).symm]
  refine Finset.sum_congr rfl fun i _ => ?_
  rw [plain_lhsIdx, plain_rhsIdx]

end Cert.LibDot

end
-- ==== Proof.LibRows.lean ====
/-
  Rows of dense layers, read entry by entry on the extended reals. A matrix product with the plain dimension
  numbers (rows × contraction by contraction × columns), taken by the matrix unit into a zero accumulator or by the
  host, is the textbook sum `∑ i, l (p, i) · r (i, q)` at entry `(p, q)`; a bias vector made a row and repeated down
  the rows reads its entry `q` at `(p, q)`, in the kernel's spelling and in the host's; a scalar broadcast reads the
  scalar everywhere; two 64-column arrays side by side read the first below column 64 and the second from there on.
  With these one entry of a two-layer perceptron's output depends on one row of its input (`mlpRow`).
-/
import proofs.«137642_j58213986729999_2_alg».proof.Proof.LibDot
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.LibRows

open Idealize.ShloMosaic Idealize.ShloMosaic.ValueIdx

/-- A product into a zero accumulator, for dimension numbers that are the plain ones, read at an entry. -/
theorem matmul_plain_apply {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (q : Fin N) :
    matmul D prec l r (constant ⟨2, ![M, N]⟩ .f32 0x00000000#32) (ix2 p q) = ∑ i : Fin K, l (ix2 p i) * r (ix2 i q) := by
  subst hD
  refine (Ideal.matmul_constant_zero_apply (DotDims.plain M K N) prec l r (ix2 p q)).trans ?_
  exact Cert.LibDot.plain_sum M K N l r p q

/-- The host's product with the plain dimension numbers, read at an entry: the same sum. -/
theorem dotGeneral_plain_apply {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (q : Fin N) :
    Host.dotGeneral D prec l r (ix2 p q) = ∑ i : Fin K, l (ix2 p i) * r (ix2 i q) := by
  subst hD
  refine (Ideal.dotGeneral_apply (DotDims.plain M K N) prec .single l r (ix2 p q)).trans ?_
  exact Cert.LibDot.plain_sum M K N l r p q

/-- A vector of `b` entries made a row and repeated down `a` rows reads, at `(p, c)`, the vector's entry `c`. -/
theorem rowBias_apply {α : Type} {a b : Nat} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) := by
  rw [broadcastTo_1b_ab_apply, shapeCast_a_1a_apply]

/-- The host's spelling of the same: a `[b]` vector broadcast along axis 1 to `[1, b]`, then along both to `[a, b]`. -/
theorem rowBiasInDim_apply {α : Type} {a b : Nat} (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (c : Fin b) :
    broadcastInDim ⟨2, ![a, b]⟩ ![0, 1] h2 (broadcastInDim ⟨2, ![1, b]⟩ ![1] h1 v) (ix2 p c) = v (ix1 c) := by
  rw [broadcastInDim_apply ![0, 1] h2 _ (ix2 p c) (ix2 (0 : Fin 1) c) (fun ax => by
    match ax with
    | ⟨0, _⟩ => rfl
    | ⟨1, _⟩ =>
      show c.val = if b = 1 then 0 else c.val
      split
      · have := c.isLt; omega
      · rfl)]
  rw [broadcastInDim_apply ![1] h1 v (ix2 (0 : Fin 1) c) (ix1 c) (fun ax => by
    match ax with
    | ⟨0, _⟩ =>
      show c.val = if b = 1 then 0 else c.val
      split
      · have := c.isLt; omega
      · rfl)]

/-- A scalar broadcast to any shape reads the scalar at every index. -/
theorem scalarInDim_apply {α : Type} {s : Shape} (x : (⟨0, ![]⟩ : Shape).Idx → α) (h : (⟨0, ![]⟩ : Shape).BroadcastsInDim s ![]) (j : s.Idx) :
    broadcastInDim s ![] h x j = x ix0 := by
  rw [broadcastInDim_apply ![] h x j ix0 (fun ax => ax.elim0)]

/-- The leaky rectifier on one extended real. -/
def lk (x : Ideal .f32) : Ideal .f32 :=
  Scalar.select (FloatOps.cmpf .oge x (Ideal.ofBits .f32 0x00000000#32)) x (Ideal.ofBits .f32 0x3C23D70A#32 * x)

/-- One entry of a two-layer perceptron's row: from the row `A` of the input. -/
def mlpRow {K H N : Nat} (A : Fin K → EReal) (w1 : (⟨2, ![K, H]⟩ : Shape).Idx → EReal) (b1 : (⟨1, ![H]⟩ : Shape).Idx → EReal)
    (w2 : (⟨2, ![H, N]⟩ : Shape).Idx → EReal) (b2 : (⟨1, ![N]⟩ : Shape).Idx → EReal) (q : Fin N) : EReal :=
  (∑ k : Fin H, lk ((∑ i : Fin K, A i * w1 (ix2 i k)) + b1 (ix1 k)) * w2 (ix2 k q)) + b2 (ix1 q)

/-- Two arrays of 64 columns side by side: column `i` is the first array's below 64 and the second's column `i - 64` from there on. -/
theorem cat_apply {α : Type} {M : Nat} (a b : (⟨2, ![M, 64]⟩ : Shape).Idx → α)
    (h : Shape.Concatenates [⟨2, ![M, 64]⟩, ⟨2, ![M, 64]⟩] ⟨2, ![M, 128]⟩ 1) (p : Fin M) (i : Fin 128) :
    concatenate ⟨2, ![M, 128]⟩ 1 [⟨⟨2, ![M, 64]⟩, a⟩, ⟨⟨2, ![M, 64]⟩, b⟩] h (ix2 p i)
      = if hi : i.val < 64 then a (ix2 p ⟨i.val, hi⟩) else b (ix2 p ⟨i.val - 64, by have := i.isLt; omega⟩) := by
  split
  · next hi =>
    refine concatenate_pair_apply_left 1 a b h (ix2 p i) rfl (ix2 p ⟨i.val, hi⟩) fun bb => ?_
    match bb with
    | ⟨0, _⟩ => rfl
    | ⟨1, _⟩ => rfl
  · next hi =>
    refine concatenate_pair_apply_right 1 a b h (ix2 p i) rfl rfl (ix2 p ⟨i.val - 64, by have := i.isLt; omega⟩) (fun bb hb => ?_) ?_
    · match bb with
      | ⟨0, _⟩ => rfl
      | ⟨1, _⟩ => exact absurd rfl hb
    · show i.val - 64 + 64 = i.val
      omega

end Cert.LibRows

end
-- ==== Proof.LibCols.lean ====
/-
  A column of per-row numbers against a matrix, read entry by entry. A vector of `a` entries made a column `[a, 1]`
  reads its entry `p` at `(p, 0)`; a column repeated across `b` columns reads its entry `p` at `(p, c)`. Both in the
  vector unit's spelling (a shape cast, a broadcast) and in the host's (two `broadcast_in_dim`s). These are the forms
  a keep-dimensions row reduction takes on its way back to the matrix it was reduced from.
-/
import Idealize.ShloMosaic.Lib.Pipeline.Value
import Idealize.ShloMosaic.Lib.ValueIdx
import Idealize.ShloMosaic.Lib.ValueLayout

namespace Cert.LibCols

open Idealize.ShloMosaic Idealize.ShloMosaic.ValueIdx

variable {α : Type}

/-- An `[a]` array cast to `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's column: an `[a]` vector broadcast along axis 0 into `[a, 1]` reads, at `(p, u)`, the vector's entry `p`. -/
theorem inDim_a_a1_apply {a : ℕ} (v : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- The host's repeated column: an `[a, 1]` array broadcast along both axes into `[a, b]` reads, at `(p, c)`, entry `p`. -/
theorem inDim_a1_ab_apply {a b : ℕ} (v : (⟨2, ![a, 1]⟩ : Shape).Idx → α) (h : (⟨2, ![a, 1]⟩ : Shape).BroadcastsInDim ⟨2, ![a, b]⟩ ![0, 1])
    (p : Fin a) (c : Fin b) : broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

end Cert.LibCols
-- ==== Proof.Spec.lean ====
/-
  The functions a graph-convolution layer is made of, on arrays of extended reals, index by index.

  A layer multiplies the node features by a weight matrix, sums over the edges that land on each node the rows of the
  product at the edges' source nodes, weighted by the inverse square roots of the two end points' degrees, and adds a bias.
  One program applies the source node's weight to the product before the rows are gathered (scaleMM) and the target
  node's weight after the sum (act, lin); the other applies the product of the two weights to each gathered row.
-/
import Idealize.ShloMosaic.PureOps.Ideal
import Idealize.ShloMosaic.PureOps.Ideal.Laws
import Idealize.ShloMosaic.Lib.ValueIdx

noncomputable section

namespace Cert.Gcn

open Idealize.ShloMosaic Idealize.ShloMosaic.ValueIdx

/-- Row n of H times column f of W, then times the weight D n of node n. -/
def scaleMM {N K C : Nat} (H : (⟨2, ![N, K]⟩ : Shape).Idx → EReal) (W : (⟨2, ![K, C]⟩ : Shape).Idx → EReal)
    (D : (⟨2, ![N, 1]⟩ : Shape).Idx → EReal) : (⟨2, ![N, C]⟩ : Shape).Idx → EReal :=
  fun i => (∑ k : Fin K, H (ix2 (i 0) k) * W (ix2 k (i 1))) * D (ix2 (i 0) (0 : Fin 1))

/-- Entry (n, f) of Q times the weight D n of node n, plus the bias B f. -/
def lin {N K : Nat} (Q : (⟨2, ![N, K]⟩ : Shape).Idx → EReal) (D : (⟨2, ![N, 1]⟩ : Shape).Idx → EReal)
    (B : (⟨2, ![1, K]⟩ : Shape).Idx → EReal) : (⟨2, ![N, K]⟩ : Shape).Idx → EReal :=
  fun i => Q i * D (ix2 (i 0) (0 : Fin 1)) + B (ix2 (0 : Fin 1) (i 1))

/-- The same, cut off below at the value of the zero word (the rectifier). -/
def act {N K : Nat} (Q : (⟨2, ![N, K]⟩ : Shape).Idx → EReal) (D : (⟨2, ![N, 1]⟩ : Shape).Idx → EReal)
    (B : (⟨2, ![1, K]⟩ : Shape).Idx → EReal) : (⟨2, ![N, K]⟩ : Shape).Idx → EReal :=
  fun i => max (lin Q D B i) (Ideal.ofBits .f32 0x00000000#32)

end Cert.Gcn

end
-- ==== Proof.Layer.lean ====
/-
  One graph-convolution layer, in the two arrangements the two programs compute it in, read entry by entry on the
  extended reals, and the law that joins them.

  Edges e carry a source row r(e) (the clamped start index of the row gather) and land on the node n whose number
  the edge's target word reads as. With a(e) the product row of the source and d the per-node weights,
  one program sums a(e) · d(r(e)) over the edges landing on n and multiplies the sum by d(n) afterwards; the other sums
  a(e) · (d(r(e)) · d(c(e))) where c(e) is the clamped, sign-normalised target, which is n for an edge that lands on n.
  The two agree because a weight that is neither negative nor +∞ distributes over a finite sum of extended reals, and
  multiplication of extended reals is associative.
-/
import proofs.«137642_j58213986729999_2_alg».proof.Proof.LibScatter
import proofs.«137642_j58213986729999_2_alg».proof.Proof.LibRowGather
import proofs.«137642_j58213986729999_2_alg».proof.Proof.LibRows
import proofs.«137642_j58213986729999_2_alg».proof.Proof.LibCols
import proofs.«137642_j58213986729999_2_alg».proof.Proof.Spec
import Idealize.ShloMosaic.Lib.Pipeline.Value
import Idealize.ShloMosaic.Lib.ValueIdx
import Idealize.ShloMosaic.Lib.ValueLayout

noncomputable section

namespace Cert.Layer

open Idealize.ShloMosaic Idealize.ShloMosaic.ValueIdx Cert.LibScatter Cert.LibRowGather Cert.Gcn

variable {N E K C : Nat}

/-- The node an edge's start index names: the word read signed and clamped into the node range. -/
def node (hN : 0 < N) (idx : IVec ⟨2, ![E, 1]⟩ 32) (e : Fin E) : Fin N :=
  ⟨clampIdx (idx (ix2 e (0 : Fin 1))) N, clampIdx_lt _ hN⟩

/-- Entry (n, f) of the sum over the edges landing on n of the rows of P at the edges' sources. -/
def aggAt (hN : 0 < N) (P : (⟨2, ![N, C]⟩ : Shape).Idx → EReal) (rowB colB : IVec ⟨2, ![E, 1]⟩ 32) (n : Fin N) (f : Fin C) : EReal :=
  Ideal.ofBits .f32 0x00000000#32
    + ∑ e : Fin E, if (colB (ix2 e (0 : Fin 1))).toInt = (n.val : Int) then P (ix2 (node hN rowB e) f) else 0

/-- The array of those sums. -/
def agg (hN : 0 < N) (P : (⟨2, ![N, C]⟩ : Shape).Idx → EReal) (rowB colB : IVec ⟨2, ![E, 1]⟩ 32) :
    (⟨2, ![N, C]⟩ : Shape).Idx → EReal := fun i => aggAt hN P rowB colB (i 0) (i 1)

/-- Gathering the rows of P at the edges' sources and adding them into a zero array at the edges' targets is agg. -/
theorem agg_eq (hN : 0 < N) (wfs : ScatterDims.WF ⟨2, ![N, C]⟩ ⟨2, ![E, 1]⟩ ⟨2, ![E, C]⟩ [1] [0] [0] 1)
    (wfg : GatherDims.WF ⟨2, ![N, C]⟩ ⟨2, ![E, 1]⟩ ⟨2, ![E, C]⟩ [1] [0] [] [0] [] 1 ![1, C])
    {φ : FTy} (hφ : φ.bits < FTy.f32.bits)
    (Z : FVec Ideal ⟨2, ![N, C]⟩ .f32) (hZ : ∀ i, Z i = Ideal.ofBits .f32 0x00000000#32)
    (P : FVec Ideal ⟨2, ![N, C]⟩ φ) (rowB colB : IVec ⟨2, ![E, 1]⟩ 32) :
    Host.scatterAdd (F := Ideal) (rowDims N E C wfs) Z colB (extf .f32 (Host.gather (rowsDims N E C wfg) P rowB) hφ)
      = agg hN P rowB colB := by
  funext i
  obtain ⟨n, f, rfl⟩ : ∃ (n : Fin N) (f : Fin C), i = ix2 n f := ⟨i 0, i 1, eq_ix2 i⟩
  rw [scatterAdd_rows_apply, hZ]
  show _ = aggAt hN P rowB colB n f
  unfold aggAt
  refine congrArg _ (Finset.sum_congr rfl fun e _ => ?_)
  refine if_congr Iff.rfl ?_ rfl
  rw [extf_apply, gather_rows_apply hN]
  rfl

/-- Entry (n, f) of the other arrangement: each gathered product row weighted by both end points' weights, summed
    over the edges landing on n, plus the bias. -/
def refLayerAt (hN : 0 < N) (H : (⟨2, ![N, K]⟩ : Shape).Idx → EReal) (W : (⟨2, ![K, C]⟩ : Shape).Idx → EReal)
    (b : (⟨1, ![C]⟩ : Shape).Idx → EReal) (D1 : (⟨1, ![N]⟩ : Shape).Idx → EReal)
    (rowB colNB colB : IVec ⟨2, ![E, 1]⟩ 32) (n : Fin N) (f : Fin C) : EReal :=
  (Ideal.ofBits .f32 0x00000000#32
    + ∑ e : Fin E, if (colB (ix2 e (0 : Fin 1))).toInt = (n.val : Int) then
        (∑ k : Fin K, H (ix2 (node hN rowB e) k) * W (ix2 k f))
          * (D1 (ix1 (node hN rowB e)) * D1 (ix1 (node hN colNB e))) else 0) + b (ix1 f)

def refLayer (hN : 0 < N) (H : (⟨2, ![N, K]⟩ : Shape).Idx → EReal) (W : (⟨2, ![K, C]⟩ : Shape).Idx → EReal)
    (b : (⟨1, ![C]⟩ : Shape).Idx → EReal) (D1 : (⟨1, ![N]⟩ : Shape).Idx → EReal)
    (rowB colNB colB : IVec ⟨2, ![E, 1]⟩ 32) : (⟨2, ![N, C]⟩ : Shape).Idx → EReal :=
  fun i => refLayerAt hN H W b D1 rowB colNB colB (i 0) (i 1)

/-- The host's spelling of that arrangement is refLayer. -/
theorem refLayer_eq (hN : 0 < N) (wfs : ScatterDims.WF ⟨2, ![N, C]⟩ ⟨2, ![E, 1]⟩ ⟨2, ![E, C]⟩ [1] [0] [0] 1)
    (wfg : GatherDims.WF ⟨2, ![N, C]⟩ ⟨2, ![E, 1]⟩ ⟨2, ![E, C]⟩ [1] [0] [] [0] [] 1 ![1, C])
    (wfv : GatherDims.WF ⟨1, ![N]⟩ ⟨2, ![E, 1]⟩ ⟨1, ![E]⟩ [] [0] [] [0] [] 1 ![1])
    (dd : DotDims ⟨2, ![N, K]⟩ ⟨2, ![K, C]⟩ ⟨2, ![N, C]⟩) (hdd : dd = DotDims.plain N K C)
    (Z : FVec Ideal ⟨2, ![N, C]⟩ .f32) (hZ : ∀ i, Z i = Ideal.ofBits .f32 0x00000000#32)
    (H : FVec Ideal ⟨2, ![N, K]⟩ .f32) (W : FVec Ideal ⟨2, ![K, C]⟩ .f32) (b : FVec Ideal ⟨1, ![C]⟩ .f32)
    (D1 : FVec Ideal ⟨1, ![N]⟩ .f32) (rowB colNB colB : IVec ⟨2, ![E, 1]⟩ 32)
    (h1 : (⟨1, ![E]⟩ : Shape).BroadcastsInDim ⟨2, ![E, 1]⟩ ![0])
    (h2 : (⟨2, ![E, 1]⟩ : Shape).BroadcastsInDim ⟨2, ![E, C]⟩ ![0, 1])
    (hb1 : (⟨1, ![C]⟩ : Shape).BroadcastsInDim ⟨2, ![1, C]⟩ ![1])
    (hb2 : (⟨2, ![1, C]⟩ : Shape).BroadcastsInDim ⟨2, ![N, C]⟩ ![0, 1]) :
    addf (Host.scatterAdd (F := Ideal) (rowDims N E C wfs) Z colB
        (mulf (Host.gather (rowsDims N E C wfg) (Host.dotGeneral dd none H W) rowB)
          (broadcastInDim ⟨2, ![E, C]⟩ ![0, 1] h2 (broadcastInDim ⟨2, ![E, 1]⟩ ![0] h1
            (mulf (Host.gather (vecDims N E wfv) D1 rowB) (Host.gather (vecDims N E wfv) D1 colNB))))))
      (broadcastInDim ⟨2, ![N, C]⟩ ![0, 1] hb2 (broadcastInDim ⟨2, ![1, C]⟩ ![1] hb1 b))
      = refLayer hN H W b D1 rowB colNB colB := by
  funext i
  obtain ⟨n, f, rfl⟩ : ∃ (n : Fin N) (f : Fin C), i = ix2 n f := ⟨i 0, i 1, eq_ix2 i⟩
  rw [addf_apply, scatterAdd_rows_apply, hZ, Cert.LibRows.rowBiasInDim_apply]
  show _ = refLayerAt hN H W b D1 rowB colNB colB n f
  unfold refLayerAt
  refine congrArg (· + b (ix1 f)) (congrArg _ (Finset.sum_congr rfl fun e _ => ?_))
  refine if_congr Iff.rfl ?_ rfl
  rw [mulf_apply, gather_rows_apply hN, Cert.LibRows.dotGeneral_plain_apply dd hdd,
    Cert.LibCols.inDim_a1_ab_apply, Cert.LibCols.inDim_a_a1_apply, mulf_apply, gather_vec_apply hN, gather_vec_apply hN]
  rfl

/-- A factor that is neither negative nor +∞ distributes over a finite sum of extended reals. -/
theorem sum_mul_const {ι : Type} (s : Finset ι) (a : ι → EReal) (D : EReal) (h0 : 0 ≤ D) (ht : D ≠ ⊤) :
    (∑ e ∈ s, a e) * D = ∑ e ∈ s, a e * D := by
  classical
  refine Finset.induction_on s (by simp) fun x s hx ih => ?_
  rw [Finset.sum_insert hx, Finset.sum_insert hx, EReal.right_distrib_of_nonneg_of_ne_top h0 ht, ih]

/-- THE LAW OF ONE LAYER: weighting each gathered row by both end points' weights is weighting the product rows by
    the source's weight before the gather and the sum by the target's weight after it. -/
theorem refLayer_eq_lin (hN : 0 < N) (H : (⟨2, ![N, K]⟩ : Shape).Idx → EReal) (W : (⟨2, ![K, C]⟩ : Shape).Idx → EReal)
    (b : (⟨1, ![C]⟩ : Shape).Idx → EReal) (D1 : (⟨1, ![N]⟩ : Shape).Idx → EReal)
    (D2 : (⟨2, ![N, 1]⟩ : Shape).Idx → EReal) (Brow : (⟨2, ![1, C]⟩ : Shape).Idx → EReal)
    (rowB colNB colB : IVec ⟨2, ![E, 1]⟩ 32)
    (hD2 : ∀ n : Fin N, D2 (ix2 n (0 : Fin 1)) = D1 (ix1 n))
    (hB : ∀ f : Fin C, Brow (ix2 (0 : Fin 1) f) = b (ix1 f))
    (h0 : ∀ n : Fin N, 0 ≤ D1 (ix1 n)) (ht : ∀ n : Fin N, D1 (ix1 n) ≠ ⊤)
    (hcol : ∀ (e : Fin E) (n : Fin N), (colB (ix2 e (0 : Fin 1))).toInt = (n.val : Int) → node hN colNB e = n) :
    refLayer hN H W b D1 rowB colNB colB = lin (agg hN (scaleMM H W D2) rowB colB) D2 Brow := by
  funext i
  obtain ⟨n, f, rfl⟩ : ∃ (n : Fin N) (f : Fin C), i = ix2 n f := ⟨i 0, i 1, eq_ix2 i⟩
  show refLayerAt hN H W b D1 rowB colNB colB n f
    = aggAt hN (scaleMM H W D2) rowB colB n f * D2 (ix2 n (0 : Fin 1)) + Brow (ix2 (0 : Fin 1) f)
  unfold refLayerAt aggAt
  rw [hB, hD2, Ideal.ofBits_zero_f32, zero_add, zero_add, sum_mul_const _ _ _ (h0 n) (ht n)]
  refine congrArg (· + b (ix1 f)) (Finset.sum_congr rfl fun e _ => ?_)
  by_cases hc : (colB (ix2 e (0 : Fin 1))).toInt = (n.val : Int)
  · rw [if_pos hc, if_pos hc, hcol e n hc]
    show _ = (∑ k : Fin K, H (ix2 (node hN rowB e) k) * W (ix2 k f)) * D2 (ix2 (node hN rowB e) (0 : Fin 1)) * D1 (ix1 n)
    rw [hD2, mul_assoc]
  · rw [if_neg hc, if_neg hc, zero_mul]

end Cert.Layer

end
-- ==== Proof.KHost.lean ====
/-
  The host side of the idealized kernel program as functions of the argument arrays: the edge index arrays and the per-node
  weights, computed once, and the step between two kernel regions — gather the rows of a region's result at the edges'
  sources, add them into a zero array at the edges' targets — which is the sum over the edges landing on a node.
-/
import proofs.«137642_j58213986729999_2_alg».proof.Proof.Gen.KernelIdeal.Frame
import proofs.«137642_j58213986729999_2_alg».proof.Proof.Layer
import Idealize.ShloMosaic.PureOps.Ideal
import Idealize.ShloMosaic.PureOps.Ideal.Laws
import Idealize.ShloMosaic.Lib.ValueIdx
import Idealize.ShloMosaic.Lib.StableHlo.Run
import Idealize.ShloMosaic.Lib.Pipeline.Value

set_option maxRecDepth 16384

noncomputable section

namespace Cert.KernelIdeal.KHost

open Idealize.ShloMosaic Idealize.ShloMosaic.TcCoe Idealize.SL.Sem Idealize.ShloMosaic.StableHlo
open Cert.KernelIdeal Cert.KernelIdeal.Gen

/-! ## The edge arrays and the weights, as functions of the edge argument -/

/-- The target word of every edge: row 1 of the edge argument, then one self loop per node. -/
def colV (a1 : IVec S2x1600000 32) : IVec S1700000 32 :=
  concatenate S1700000 0 [⟨S1600000, (shapeCast _ (extractStridedSlice S1x1600000 ![1, 0] a1 slices_S2x1600000_S1x1600000_1_0) shapeCasts_S1x1600000_S1600000)⟩, ⟨S100000, (iotaInDim S100000 32 0)⟩] concatenates_S1600000_S100000_S1700000_d0

/-- The source word of every edge: row 0 of the edge argument, then one self loop per node. -/
def rowV (a1 : IVec S2x1600000 32) : IVec S1700000 32 :=
  concatenate S1700000 0 [⟨S1600000, (shapeCast _ (extractStridedSlice S1x1600000 ![0, 0] a1 slices_S2x1600000_S1x1600000_0_0) shapeCasts_S1x1600000_S1600000)⟩, ⟨S100000, (iotaInDim S100000 32 0)⟩] concatenates_S1600000_S100000_S1700000_d0

/-- The targets as a column of scatter indices. -/
def colB (a1 : IVec S2x1600000 32) : IVec S1700000x1 32 :=
  broadcastInDim S1700000x1 ![0] bcast_S1700000_S1700000x1_0 (colV a1)

/-- The sources, a negative word moved up by the node count, as a column of gather indices. -/
def rowNB (a1 : IVec S2x1600000 32) : IVec S1700000x1 32 :=
  broadcastInDim S1700000x1 ![0] bcast_S1700000_S1700000x1_0
    (select (cmpi .slt (rowV a1) (broadcastInDim S1700000 ![] bcast_S_S1700000 (constantI S_ 32 0#32)))
      (addi (rowV a1) (broadcastInDim S1700000 ![] bcast_S_S1700000 (constantI S_ 32 100000#32))) (rowV a1))

/-- The number of edges landing on each node. -/
def deg (a1 : IVec S2x1600000 32) : FVec Ideal S100000 .f32 :=
  Host.scatterAdd scatter_S100000_S1700000x1_S1700000_n_0_0_1
    (broadcastInDim S100000 ![] bcast_S_S100000 (constant S_ .f32 0x00000000#32)) (colB a1)
    (broadcastInDim S1700000 ![] bcast_S_S1700000 (constant S_ .f32 0x3F800000#32))

/-- The weight of each node: the inverse square root of its degree where that is positive, zero elsewhere. -/
def dinv1 (a1 : IVec S2x1600000 32) : FVec Ideal S100000 .f32 :=
  select (cmpf (F := Ideal) .ogt (deg a1) (broadcastInDim S100000 ![] bcast_S_S100000 (constant S_ .f32 0x00000000#32)))
    (Host.rsqrt (maximumf (deg a1) (broadcastInDim S100000 ![] bcast_S_S100000 (constant S_ .f32 0x2B8CBCCC#32))))
    (broadcastInDim S100000 ![] bcast_S_S100000 (id (constant S_ .f32 0x00000000#32)))

/-- The weights as a column. -/
def dinv2 (a1 : IVec S2x1600000 32) : FVec Ideal S100000x1 .f32 :=
  shapeCast S100000x1 (dinv1 a1) shapeCasts_S100000_S100000x1

/-- The bias of a layer as a row. -/
def brow128 (b : FVec Ideal S128 .f32) : FVec Ideal S1x128 .f32 := shapeCast S1x128 b shapeCasts_S128_S1x128

/-- The last layer's bias as a row. -/
def brow64 (b : FVec Ideal S64 .f32) : FVec Ideal S1x64 .f32 := shapeCast S1x64 b shapeCasts_S64_S1x64

/-- The step between two regions, 128 features: gather the rows at the edges' sources, add them up at the edges' targets. -/
def step128 (P : FVec Ideal S100000x128 .bf16) (a1 : IVec S2x1600000 32) : FVec Ideal S100000x128 .f32 :=
  Host.scatterAdd scatter_S100000x128_S1700000x1_S1700000x128_1_0_0_1
    (broadcastInDim S100000x128 ![] bcast_S_S100000x128 (constant S_ .f32 0x00000000#32)) (colB a1)
    (extf .f32 (Host.gather gather_S100000x128_S1700000x1_S1700000x128_1_0_n_n_0_1_1128 P (rowNB a1)) bitsLt_bf16_f32)

/-- The same step on 64 features. -/
def step64 (P : FVec Ideal S100000x64 .bf16) (a1 : IVec S2x1600000 32) : FVec Ideal S100000x64 .f32 :=
  Host.scatterAdd scatter_S100000x64_S1700000x1_S1700000x64_1_0_0_1
    (broadcastInDim S100000x64 ![] bcast_S_S100000x64 (constant S_ .f32 0x00000000#32)) (colB a1)
    (extf .f32 (Host.gather gather_S100000x64_S1700000x1_S1700000x64_1_0_n_n_0_1_164 P (rowNB a1)) bitsLt_bf16_f32)

theorem hN : 0 < 100000 := by decide

theorem zeros_apply {s : Shape} (h : (S_ : Shape).BroadcastsInDim s ![]) (i : s.Idx) :
    broadcastInDim s ![] h (constant (F := Ideal) S_ .f32 0x00000000#32) i = Ideal.ofBits .f32 0x00000000#32 := by
  rw [Cert.LibRows.scalarInDim_apply]; rfl

/-- The step is the sum over the edges landing on a node of the rows at the edges' sources. -/
theorem step128_eq (P : FVec Ideal S100000x128 .bf16) (a1 : IVec S2x1600000 32) :
    step128 P a1 = Cert.Layer.agg (N := 100000) (E := 1700000) (C := 128) hN P (rowNB a1) (colB a1) :=
  Cert.Layer.agg_eq hN scatter_S100000x128_S1700000x1_S1700000x128_1_0_0_1.wf gather_S100000x128_S1700000x1_S1700000x128_1_0_n_n_0_1_1128.wf
    bitsLt_bf16_f32 _ (zeros_apply _) P (rowNB a1) (colB a1)

theorem step64_eq (P : FVec Ideal S100000x64 .bf16) (a1 : IVec S2x1600000 32) :
    step64 P a1 = Cert.Layer.agg (N := 100000) (E := 1700000) (C := 64) hN P (rowNB a1) (colB a1) :=
  Cert.Layer.agg_eq hN scatter_S100000x64_S1700000x1_S1700000x64_1_0_0_1.wf gather_S100000x64_S1700000x1_S1700000x64_1_0_n_n_0_1_164.wf
    bitsLt_bf16_f32 _ (zeros_apply _) P (rowNB a1) (colB a1)

/-- The program's result as a function of the argument arrays: three rounds of "product rows weighted at the source,
    summed over the edges, weighted at the target, plus the bias", the first two cut off below at zero. -/
def result (x : FVec Ideal S100000x128 .f32) (a1 : IVec S2x1600000 32) (w1 : FVec Ideal S128x128 .f32) (b1 : FVec Ideal S128 .f32)
    (w2 : FVec Ideal S128x128 .f32) (b2 : FVec Ideal S128 .f32) (w3 : FVec Ideal S128x64 .f32) (b3 : FVec Ideal S64 .f32) :
    FVec Ideal S100000x64 .f32 :=
  Cert.Gcn.lin (step64 (Cert.Gcn.scaleMM (Cert.Gcn.act (step128 (Cert.Gcn.scaleMM (Cert.Gcn.act (step128
      (Cert.Gcn.scaleMM x w1 (dinv2 a1)) a1) (dinv2 a1) (brow128 b1)) w2 (dinv2 a1)) a1) (dinv2 a1) (brow128 b2)) w3 (dinv2 a1)) a1)
    (dinv2 a1) (brow64 b3)

end Cert.KernelIdeal.KHost

end
-- ==== Proof.Reg0.lean ====
/-
  The first layer's dense step, read as one function of whole arrays. The node features H (100000 rows of 128) are cut
  into 20 blocks of 5000 rows; at block t the step multiplies the block by the weight matrix W (128 by 128, the same at
  every block), scales row n of the product by the weight D n of node n, and writes the block back to rows
  5000 t … 5000 t + 4999 of the result. The 20 blocks tile the rows, so the result is (∑ k, H n k * W k f) * D n at
  every (n, f).
-/
import proofs.«137642_j58213986729999_2_alg».proof.Proof.Gen.KernelIdeal.Frame
import proofs.«137642_j58213986729999_2_alg».proof.Proof.Spec
import proofs.«137642_j58213986729999_2_alg».proof.Proof.LibRows
import proofs.«137642_j58213986729999_2_alg».proof.Proof.LibCols
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg0

open Idealize.ShloMosaic Idealize.ShloMosaic.TcCoe Idealize.SL.Sem Cert.KernelIdeal Cert.KernelIdeal.Gen
open Idealize.ShloMosaic.ValueIdx

/-- One block's arithmetic at an entry: row p of the block against column q of the matrix, times the row's weight. -/
theorem payload_apply (x : FVec Ideal S5000x128 .f32) (w : FVec Ideal S128x128 .f32) (d : FVec Ideal S5000x1 .f32)
    (p : Fin 5000) (q : Fin 128) :
    k0_pay1 (F := Ideal) x w d (ix2 p q) = (∑ k : Fin 128, x (ix2 p k) * w (ix2 k q)) * d (ix2 p (0 : Fin 1)) := by
  unfold k0_pay1
  rw [truncf_apply, mulf_apply, shapeCast_self, Cert.LibCols.broadcastTo_a1_ab_apply]
  rw [Cert.LibRows.matmul_plain_apply dot_S5000x128_S128x128_S5000x128_1_0_0_1_n_n rfl]
  rfl

/-- The zero offsets of a whole-block access, as the constant function. -/
theorem zero_offsets : (![0, 0] : Fin 2 → Nat) = fun _ => 0 := funext fun a => by fin_cases a <;> rfl

/-- The block indices over the grid: the row-blocked windows sit at block (t, 0), the matrix at block (0, 0). -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Entry (p, k) of block t of H is entry (5000 t + p, k) of H, the matrix's block is the matrix, and the weight's
    entry is (5000 t + p, 0): the block's arithmetic on the blocks of H, W, D at point t is the whole-array function
    at the entry's place. -/
theorem block_entry (H : S100000x128.Idx → EReal) (W : S128x128.Idx → EReal) (D : S100000x1.Idx → EReal)
    (t : Fin cfg0.N) (p : Fin 5000) (q : Fin 128) :
    (∑ k : Fin 128, H (((cfg0.win 0).blk t).view.emb (ix2 p k)) * W (((cfg0.win 1).blk t).view.emb (ix2 k q)))
        * D (((cfg0.win 2).blk t).view.emb (ix2 p (0 : Fin 1)))
      = Cert.Gcn.scaleMM H W D (((cfg0.win 3).blk t).view.emb (ix2 p q)) := by
  obtain ⟨e00, e01, e10, e11, e20, e21, e30, e31⟩ := block_indices t
  show _ = (∑ k : Fin 128, H (ix2 ((((cfg0.win 3).blk t).view.emb (ix2 p q)) 0) k)
              * W (ix2 k ((((cfg0.win 3).blk t).view.emb (ix2 p q)) 1)))
          * D (ix2 ((((cfg0.win 3).blk t).view.emb (ix2 p q)) 0) (0 : Fin 1))
  have h0 : ∀ k : Fin 128, ((cfg0.win 0).blk t).view.emb (ix2 p k) = ix2 ((((cfg0.win 3).blk t).view.emb (ix2 p q)) 0) k := by
    intro k; funext a; apply Fin.ext
    match a with
    | ⟨0, _⟩ => show win0_0.index t (0 : Fin 2) * 5000 + 1 * p.val = win0_3.index t (0 : Fin 2) * 5000 + 1 * p.val; omega
    | ⟨1, _⟩ => show win0_0.index t (1 : Fin 2) * 128 + 1 * k.val = k.val; omega
  have h1 : ∀ k : Fin 128, ((cfg0.win 1).blk t).view.emb (ix2 k q) = ix2 k ((((cfg0.win 3).blk t).view.emb (ix2 p q)) 1) := by
    intro k; funext a; apply Fin.ext
    match a with
    | ⟨0, _⟩ => show win0_1.index t (0 : Fin 2) * 128 + 1 * k.val = k.val; omega
    | ⟨1, _⟩ => show win0_1.index t (1 : Fin 2) * 128 + 1 * q.val = win0_3.index t (1 : Fin 2) * 128 + 1 * q.val; omega
  have h2 : ((cfg0.win 2).blk t).view.emb (ix2 p (0 : Fin 1)) = ix2 ((((cfg0.win 3).blk t).view.emb (ix2 p q)) 0) (0 : Fin 1) := by
    funext a; apply Fin.ext
    match a with
    | ⟨0, _⟩ => show win0_2.index t (0 : Fin 2) * 5000 + 1 * p.val = win0_3.index t (0 : Fin 2) * 5000 + 1 * p.val; omega
    | ⟨1, _⟩ => show win0_2.index t (1 : Fin 2) * 1 + 1 * 0 = 0; omega
  exact congrArg₂ (· * ·) (Finset.sum_congr rfl fun k _ => congrArg₂ (· * ·) (congrArg H (h0 k)) (congrArg W (h1 k)))
    (congrArg D h2)

/-- WHAT POINT t WRITES BACK: block t of the whole-array function, whatever the region finds in its arrays. -/
theorem flushed_eq (V : (c : Dev nD) → (b : Ref sig .tc) → Buf (Elt Ideal) ((c : Thread nD τ).loc b)) (c : Dev nD) (t : Fin cfg0.N) :
    (dat0 (F := Ideal) V c).flushed 3 t
      = ((cfg0.win 3).blk t).view.read (Elt Ideal) (Cert.Gcn.scaleMM (V c main_arg0) (V c main_arg2) (V c main_v17)) := by
  show (cfg0.win 3).cut (grid0.coords t) ((dat0 (F := Ideal) V c).after 3 t) = _
  rw [after0_3]
  unfold out0_3
  rw [View.canon_unit_zero zero_offsets]
  simp only [View.ld_unit_zero (S := S5000x128) zero_offsets, View.ld_unit_zero (S := S128x128) zero_offsets,
    View.ld_unit_zero (S := S5000x1) zero_offsets]
  funext j
  obtain ⟨p, q, rfl⟩ : ∃ (p : Fin 5000) (q : Fin 128), j = ix2 p q := ⟨j 0, j 1, eq_ix2 j⟩
  refine (payload_apply (iblk0 V c 0 t) (iblk0 V c 1 t) (iblk0 V c 2 t) p q).trans ?_
  exact block_entry (V c main_arg0) (V c main_arg2) (V c main_v17) t p q

/-- An index of the result is in point t's block iff each coordinate is in the block's range on its axis. -/
theorem mem_blk (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v18).slice (win0_3.rect t)).set ↔ _
  rw [View.set_slice_whole, Rect.mem_set_unit]
  exact Iff.rfl

/-- Row r of the result is written by the point r / 5000: the 20 blocks of 5000 rows tile the 100000 rows. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  have ht : t.val = (i 0).val / 5000 := rfl
  obtain ⟨-, -, -, -, -, -, e30, e31⟩ := block_indices t
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE RESULT after the 20 write-backs: (∑ k, H n k * W k f) * D n at every (n, f), for the arrays H, W, D the region finds. -/
theorem final (V : (c : Dev nD) → (b : Ref sig .tc) → Buf (Elt Ideal) ((c : Thread nD τ).loc b)) (c : Dev nD) :
    (dat0 (F := Ideal) V c).arrAt 3 cfg0.N = Cert.Gcn.scaleMM (V c main_arg0) (V c main_arg2) (V c main_v17) :=
  (dat0 (F := Ideal) V c).arrAt_eq_of_cover 3 (Cert.Gcn.scaleMM (V c main_arg0) (V c main_arg2) (V c main_v17))
    (fun t _ => flushed_eq V c t) cover

end Cert.KernelIdeal.Reg0

end
-- ==== Proof.Reg1.lean ====
/-
  The second layer's dense step, read off the whole array. Each of the twenty grid points takes a block of 5000 rows
  of the aggregated features X, the same rows of the node weights d, the bias row b and the weight matrix W, and writes
  back the rows  ((max (X · d + b) 0) W) · d  of the output. Entry (p, q) of a block depends on row p of the block of X,
  on entry p of the block of d, on b and on column q of W; the blocks of rows tile the array, so after the twenty
  write-backs the output array is that one function of the whole input arrays.
-/
import proofs.«137642_j58213986729999_2_alg».proof.Proof.Gen.KernelIdeal.Frame
import proofs.«137642_j58213986729999_2_alg».proof.Proof.Spec
import proofs.«137642_j58213986729999_2_alg».proof.Proof.LibRows
import proofs.«137642_j58213986729999_2_alg».proof.Proof.LibCols
import Idealize.ShloMosaic.Lib.Pipeline.Value
import Idealize.ShloMosaic.Lib.ValueIdx
import Idealize.ShloMosaic.Lib.ValueLayout

noncomputable section

namespace Cert.KernelIdeal.Reg1

open Idealize.ShloMosaic Idealize.ShloMosaic.TcCoe Idealize.SL.Sem Cert.KernelIdeal Cert.KernelIdeal.Gen
open Idealize.ShloMosaic.ValueIdx
open Idealize.ShloMosaic.Pipeline (Dat)

/-- Entry (p, q) of what a point computes from its loaded blocks: row p of the block of X scaled by entry p of the
    block of d, plus the bias row, cut off below at the zero word, times column q of W, scaled by entry p of d again. -/
theorem payload_apply (d : FVec Ideal S5000x1 .f32) (x : FVec Ideal S5000x128 .f32) (b : FVec Ideal S1x128 .f32)
    (w : FVec Ideal S128x128 .f32) (p : Fin 5000) (q : Fin 128) :
    k1_pay1 (F := Ideal) d x b w (ix2 p q)
      = (∑ k : Fin 128, max (x (ix2 p k) * d (ix2 p (0 : Fin 1)) + b (ix2 (0 : Fin 1) k)) (Ideal.ofBits .f32 0x00000000#32)
            * w (ix2 k q)) * d (ix2 p (0 : Fin 1)) := by
  unfold k1_pay1
  rw [truncf_apply, mulf_apply, shapeCast_self, shapeCast_self, shapeCast_self, Cert.LibCols.broadcastTo_a1_ab_apply]
  refine congrArg (· * d (ix2 p (0 : Fin 1))) ?_
  refine (Cert.LibRows.matmul_plain_apply dot_S5000x128_S128x128_S5000x128_1_0_0_1_n_n rfl none _ _ p q).trans ?_
  refine Finset.sum_congr rfl fun k _ => ?_
  rw [truncf_apply, truncf_apply, maximumf_apply, addf_apply, mulf_apply, broadcast_apply,
    Cert.LibCols.broadcastTo_a1_ab_apply, broadcastTo_1b_ab_apply]
  rfl

/-- The whole-block rectangle's offsets are zero on both axes. -/
theorem zero_offsets : (![0, 0] : Fin 2 → Nat) = fun _ => 0 := funext fun a => by fin_cases a <;> rfl

/-- The block indices at a grid point t: the row-blocked arrays (X, d and the output) are at block (t, 0), the
    bias row and the weight matrix stay at block (0, 0). -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Entry (r, q) of the closed form, from the entries of the arrays it reads, each named by where it sits:
    row r of X, entry r of d, the bias row, column q of W. -/
theorem spec_entry (X : S100000x128.Idx → EReal) (D : S100000x1.Idx → EReal) (B : S1x128.Idx → EReal)
    (W : S128x128.Idx → EReal) (r : Fin 100000) (q : Fin 128)
    (i : S100000x128.Idx) (e0 : Fin 128 → S100000x128.Idx) (e1 : S100000x1.Idx) (e2 : Fin 128 → S1x128.Idx)
    (e3 : Fin 128 → S128x128.Idx)
    (hi : i = ix2 r q) (h0 : ∀ k, e0 k = ix2 r k) (h1 : e1 = ix2 r (0 : Fin 1)) (h2 : ∀ k, e2 k = ix2 (0 : Fin 1) k)
    (h3 : ∀ k, e3 k = ix2 k q) :
    (∑ k : Fin 128, max (X (e0 k) * D e1 + B (e2 k)) (Ideal.ofBits .f32 0x00000000#32) * W (e3 k)) * D e1
      = Cert.Gcn.scaleMM (Cert.Gcn.act X D B) W D i := by
  subst hi h1
  simp only [h0, h2, h3]
  rfl

variable (V : (c : Dev nD) → (b : Ref sig .tc) → Buf (Elt Ideal) ((c : Thread nD τ).loc b))

/-- What grid point t writes back is block t of the closed form of the arrays as the region finds them: entry (p, q)
    of the block sits at row t · 5000 + p of the row-blocked arrays, and the bias row and W are read in place. -/
theorem flushed_eq (c : Dev nD) (t : Fin cfg1.N) :
    (dat1 (F := Ideal) V c).flushed 4 t = ((cfg1.win 4).blk t).view.read (Elt Ideal)
      (Cert.Gcn.scaleMM (Cert.Gcn.act (V c main_v29) (V c main_v17) (V c main_v30)) (V c main_arg4) (V c main_v17)) := by
  show (cfg1.win 4).cut (grid1.coords t) ((dat1 V c).after 4 t) = _
  rw [after1_4]
  unfold out1_4
  rw [View.canon_unit_zero zero_offsets]
  simp only [View.ld_unit_zero (S := S5000x128) zero_offsets, View.ld_unit_zero (S := S5000x1) zero_offsets,
    View.ld_unit_zero (S := S1x128) zero_offsets, View.ld_unit_zero (S := S128x128) zero_offsets]
  obtain ⟨f0, g0, f1, g1, f2, g2, f3, g3, f4, g4⟩ := block_indices t
  have ht : t.val < 20 := by have := t.isLt; have hN : grid1.N = 20 := N_1; exact hN ▸ this
  funext j
  obtain ⟨p, q, rfl⟩ : ∃ (p : Fin 5000) (q : Fin 128), j = ix2 p q := ⟨j 0, j 1, eq_ix2 j⟩
  show k1_pay1 (iblk1 V c 1 t) (iblk1 V c 0 t) (iblk1 V c 2 t) (iblk1 V c 3 t) (ix2 p q) = _
  refine (payload_apply _ _ _ _ p q).trans ?_
  have hp : p.val < 5000 := p.isLt
  have hq : q.val < 128 := q.isLt
  have h4 : ((cfg1.win 4).blk t).view.emb (ix2 p q) = ix2 (⟨t.val * 5000 + p.val, by omega⟩ : Fin 100000) q := by
    funext a; apply Fin.ext
    match a with
    | ⟨0, _⟩ => show win1_4.index t (0 : Fin 2) * 5000 + 1 * p.val = t.val * 5000 + p.val; omega
    | ⟨1, _⟩ => show win1_4.index t (1 : Fin 2) * 128 + 1 * q.val = q.val; omega
  have h0 : ∀ k : Fin 128, ((cfg1.win 0).blk t).view.emb (ix2 p k) = ix2 (⟨t.val * 5000 + p.val, by omega⟩ : Fin 100000) k := fun k => by
    funext a; apply Fin.ext
    match a with
    | ⟨0, _⟩ => show win1_0.index t (0 : Fin 2) * 5000 + 1 * p.val = t.val * 5000 + p.val; omega
    | ⟨1, _⟩ => show win1_0.index t (1 : Fin 2) * 128 + 1 * k.val = k.val; omega
  have h1 : ((cfg1.win 1).blk t).view.emb (ix2 p (0 : Fin 1)) = ix2 (⟨t.val * 5000 + p.val, by omega⟩ : Fin 100000) (0 : Fin 1) := by
    funext a; apply Fin.ext
    match a with
    | ⟨0, _⟩ => show win1_1.index t (0 : Fin 2) * 5000 + 1 * p.val = t.val * 5000 + p.val; omega
    | ⟨1, _⟩ => show win1_1.index t (1 : Fin 2) * 1 + 1 * 0 = 0; omega
  have h2 : ∀ k : Fin 128, ((cfg1.win 2).blk t).view.emb (ix2 (0 : Fin 1) k) = ix2 (0 : Fin 1) k := fun k => by
    funext a; apply Fin.ext
    match a with
    | ⟨0, _⟩ => show win1_2.index t (0 : Fin 2) * 1 + 1 * 0 = 0; omega
    | ⟨1, _⟩ => show win1_2.index t (1 : Fin 2) * 128 + 1 * k.val = k.val; omega
  have h3 : ∀ k : Fin 128, ((cfg1.win 3).blk t).view.emb (ix2 k q) = ix2 k q := fun k => by
    funext a; apply Fin.ext
    match a with
    | ⟨0, _⟩ => show win1_3.index t (0 : Fin 2) * 128 + 1 * k.val = k.val; omega
    | ⟨1, _⟩ => show win1_3.index t (1 : Fin 2) * 128 + 1 * q.val = q.val; omega
  exact spec_entry (V c main_v29) (V c main_v17) (V c main_v30) (V c main_arg4) ⟨t.val * 5000 + p.val, by omega⟩ q
    (((cfg1.win 4).blk t).view.emb (ix2 p q)) (fun k => ((cfg1.win 0).blk t).view.emb (ix2 p k))
    (((cfg1.win 1).blk t).view.emb (ix2 p (0 : Fin 1))) (fun k => ((cfg1.win 2).blk t).view.emb (ix2 (0 : Fin 1) k))
    (fun k => ((cfg1.win 3).blk t).view.emb (ix2 k q)) h4 h0 h1 h2 h3

/-- An index of the output array is in point t's block iff each coordinate is in the block's range on its axis. -/
theorem mem_blk (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v31).slice (win1_4.rect t)).set ↔ _
  rw [View.set_slice_whole, Rect.mem_set_unit]
  exact Iff.rfl

/-- Each of the twenty row blocks of the output is the block of some grid point. -/
theorem point_of_block : ∀ r : Fin 20, ∃ t : Fin cfg1.N, win1_4.index t = ![r.val, 0] :=
  (by decide +kernel : ∀ r : Fin 20, ∃ t : Fin grid1.N, win1_4.index t = ![r.val, 0])

/-- The twenty blocks of 5000 rows cover the output array: row r is in the block of point r / 5000. -/
theorem cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  obtain ⟨t, ht⟩ := point_of_block ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The output array after the twenty write-backs: the closed form of the arrays as the region finds them. -/
theorem final (c : Dev nD) :
    (dat1 (F := Ideal) V c).arrAt 4 cfg1.N
      = Cert.Gcn.scaleMM (Cert.Gcn.act (V c main_v29) (V c main_v17) (V c main_v30)) (V c main_arg4) (V c main_v17) :=
  (dat1 (F := Ideal) V c).arrAt_eq_of_cover 4 _ (fun t _ => flushed_eq V c t) cover

end Cert.KernelIdeal.Reg1

end
-- ==== Proof.Reg2.lean ====
/-
  The third layer's dense step, read off the whole array. Each of the twenty grid points takes a block of 5000 rows
  of the aggregated features X (128 columns), the same rows of the node weights d, the bias row b and the weight
  matrix W (128 by 64), and writes back the rows  ((max (X · d + b) 0) W) · d  of the output (64 columns). Entry (p, q)
  of a block depends on row p of the block of X, on entry p of the block of d, on b and on column q of W; the blocks
  of rows tile the array, so after the twenty write-backs the output array is that one function of the whole input
  arrays.
-/
import proofs.«137642_j58213986729999_2_alg».proof.Proof.Gen.KernelIdeal.Frame
import proofs.«137642_j58213986729999_2_alg».proof.Proof.Spec
import proofs.«137642_j58213986729999_2_alg».proof.Proof.LibRows
import proofs.«137642_j58213986729999_2_alg».proof.Proof.LibCols
import Idealize.ShloMosaic.Lib.Pipeline.Value
import Idealize.ShloMosaic.Lib.ValueIdx
import Idealize.ShloMosaic.Lib.ValueLayout

noncomputable section

namespace Cert.KernelIdeal.Reg2

open Idealize.ShloMosaic Idealize.ShloMosaic.TcCoe Idealize.SL.Sem Cert.KernelIdeal Cert.KernelIdeal.Gen
open Idealize.ShloMosaic.ValueIdx
open Idealize.ShloMosaic.Pipeline (Dat)

/-- Entry (p, q) of what a point computes from its loaded blocks: row p of the block of X scaled by entry p of the
    block of d, plus the bias row, cut off below at the zero word, times column q of W, scaled by entry p of d again. -/
theorem payload_apply (d : FVec Ideal S5000x1 .f32) (x : FVec Ideal S5000x128 .f32) (b : FVec Ideal S1x128 .f32)
    (w : FVec Ideal S128x64 .f32) (p : Fin 5000) (q : Fin 64) :
    k2_pay1 (F := Ideal) d x b w (ix2 p q)
      = (∑ k : Fin 128, max (x (ix2 p k) * d (ix2 p (0 : Fin 1)) + b (ix2 (0 : Fin 1) k)) (Ideal.ofBits .f32 0x00000000#32)
            * w (ix2 k q)) * d (ix2 p (0 : Fin 1)) := by
  unfold k2_pay1
  rw [truncf_apply, mulf_apply, shapeCast_self, shapeCast_self, shapeCast_self, Cert.LibCols.broadcastTo_a1_ab_apply]
  refine congrArg (· * d (ix2 p (0 : Fin 1))) ?_
  refine (Cert.LibRows.matmul_plain_apply dot_S5000x128_S128x64_S5000x64_1_0_0_1_n_n rfl none _ _ p q).trans ?_
  refine Finset.sum_congr rfl fun k _ => ?_
  rw [truncf_apply, truncf_apply, maximumf_apply, addf_apply, mulf_apply, broadcast_apply,
    Cert.LibCols.broadcastTo_a1_ab_apply, broadcastTo_1b_ab_apply]
  rfl

/-- The whole-block rectangle's offsets are zero on both axes. -/
theorem zero_offsets : (![0, 0] : Fin 2 → Nat) = fun _ => 0 := funext fun a => by fin_cases a <;> rfl

/-- The block indices at a grid point t: the row-blocked arrays (X, d and the output) are at block (t, 0), the
    bias row and the weight matrix stay at block (0, 0). -/
theorem block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Entry (r, q) of the closed form, from the entries of the arrays it reads, each named by where it sits:
    row r of X, entry r of d, the bias row, column q of W. -/
theorem spec_entry (X : S100000x128.Idx → EReal) (D : S100000x1.Idx → EReal) (B : S1x128.Idx → EReal)
    (W : S128x64.Idx → EReal) (r : Fin 100000) (q : Fin 64)
    (i : S100000x64.Idx) (e0 : Fin 128 → S100000x128.Idx) (e1 : S100000x1.Idx) (e2 : Fin 128 → S1x128.Idx)
    (e3 : Fin 128 → S128x64.Idx)
    (hi : i = ix2 r q) (h0 : ∀ k, e0 k = ix2 r k) (h1 : e1 = ix2 r (0 : Fin 1)) (h2 : ∀ k, e2 k = ix2 (0 : Fin 1) k)
    (h3 : ∀ k, e3 k = ix2 k q) :
    (∑ k : Fin 128, max (X (e0 k) * D e1 + B (e2 k)) (Ideal.ofBits .f32 0x00000000#32) * W (e3 k)) * D e1
      = Cert.Gcn.scaleMM (Cert.Gcn.act X D B) W D i := by
  subst hi h1
  simp only [h0, h2, h3]
  rfl

variable (V : (c : Dev nD) → (b : Ref sig .tc) → Buf (Elt Ideal) ((c : Thread nD τ).loc b))

/-- What grid point t writes back is block t of the closed form of the arrays as the region finds them: entry (p, q)
    of the block sits at row t · 5000 + p of the row-blocked arrays, and the bias row and W are read in place. -/
theorem flushed_eq (c : Dev nD) (t : Fin cfg2.N) :
    (dat2 (F := Ideal) V c).flushed 4 t = ((cfg2.win 4).blk t).view.read (Elt Ideal)
      (Cert.Gcn.scaleMM (Cert.Gcn.act (V c main_v42) (V c main_v17) (V c main_v43)) (V c main_arg6) (V c main_v17)) := by
  show (cfg2.win 4).cut (grid2.coords t) ((dat2 V c).after 4 t) = _
  rw [after2_4]
  unfold out2_4
  rw [View.canon_unit_zero zero_offsets]
  simp only [View.ld_unit_zero (S := S5000x128) zero_offsets, View.ld_unit_zero (S := S5000x1) zero_offsets,
    View.ld_unit_zero (S := S1x128) zero_offsets, View.ld_unit_zero (S := S128x64) zero_offsets]
  obtain ⟨f0, g0, f1, g1, f2, g2, f3, g3, f4, g4⟩ := block_indices t
  have ht : t.val < 20 := by have := t.isLt; have hN : grid2.N = 20 := N_2; exact hN ▸ this
  funext j
  obtain ⟨p, q, rfl⟩ : ∃ (p : Fin 5000) (q : Fin 64), j = ix2 p q := ⟨j 0, j 1, eq_ix2 j⟩
  show k2_pay1 (iblk2 V c 1 t) (iblk2 V c 0 t) (iblk2 V c 2 t) (iblk2 V c 3 t) (ix2 p q) = _
  refine (payload_apply _ _ _ _ p q).trans ?_
  have hp : p.val < 5000 := p.isLt
  have hq : q.val < 64 := q.isLt
  have h4 : ((cfg2.win 4).blk t).view.emb (ix2 p q) = ix2 (⟨t.val * 5000 + p.val, by omega⟩ : Fin 100000) q := by
    funext a; apply Fin.ext
    match a with
    | ⟨0, _⟩ => show win2_4.index t (0 : Fin 2) * 5000 + 1 * p.val = t.val * 5000 + p.val; omega
    | ⟨1, _⟩ => show win2_4.index t (1 : Fin 2) * 64 + 1 * q.val = q.val; omega
  have h0 : ∀ k : Fin 128, ((cfg2.win 0).blk t).view.emb (ix2 p k) = ix2 (⟨t.val * 5000 + p.val, by omega⟩ : Fin 100000) k := fun k => by
    funext a; apply Fin.ext
    match a with
    | ⟨0, _⟩ => show win2_0.index t (0 : Fin 2) * 5000 + 1 * p.val = t.val * 5000 + p.val; omega
    | ⟨1, _⟩ => show win2_0.index t (1 : Fin 2) * 128 + 1 * k.val = k.val; omega
  have h1 : ((cfg2.win 1).blk t).view.emb (ix2 p (0 : Fin 1)) = ix2 (⟨t.val * 5000 + p.val, by omega⟩ : Fin 100000) (0 : Fin 1) := by
    funext a; apply Fin.ext
    match a with
    | ⟨0, _⟩ => show win2_1.index t (0 : Fin 2) * 5000 + 1 * p.val = t.val * 5000 + p.val; omega
    | ⟨1, _⟩ => show win2_1.index t (1 : Fin 2) * 1 + 1 * 0 = 0; omega
  have h2 : ∀ k : Fin 128, ((cfg2.win 2).blk t).view.emb (ix2 (0 : Fin 1) k) = ix2 (0 : Fin 1) k := fun k => by
    funext a; apply Fin.ext
    match a with
    | ⟨0, _⟩ => show win2_2.index t (0 : Fin 2) * 1 + 1 * 0 = 0; omega
    | ⟨1, _⟩ => show win2_2.index t (1 : Fin 2) * 128 + 1 * k.val = k.val; omega
  have h3 : ∀ k : Fin 128, ((cfg2.win 3).blk t).view.emb (ix2 k q) = ix2 k q := fun k => by
    funext a; apply Fin.ext
    match a with
    | ⟨0, _⟩ => show win2_3.index t (0 : Fin 2) * 128 + 1 * k.val = k.val; omega
    | ⟨1, _⟩ => show win2_3.index t (1 : Fin 2) * 64 + 1 * q.val = q.val; omega
  exact spec_entry (V c main_v42) (V c main_v17) (V c main_v43) (V c main_arg6) ⟨t.val * 5000 + p.val, by omega⟩ q
    (((cfg2.win 4).blk t).view.emb (ix2 p q)) (fun k => ((cfg2.win 0).blk t).view.emb (ix2 p k))
    (((cfg2.win 1).blk t).view.emb (ix2 p (0 : Fin 1))) (fun k => ((cfg2.win 2).blk t).view.emb (ix2 (0 : Fin 1) k))
    (fun k => ((cfg2.win 3).blk t).view.emb (ix2 k q)) h4 h0 h1 h2 h3

/-- An index of the output array is in point t's block iff each coordinate is in the block's range on its axis. -/
theorem mem_blk (t : Fin cfg2.N) (i : S100000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v44).slice (win2_4.rect t)).set ↔ _
  rw [View.set_slice_whole, Rect.mem_set_unit]
  exact Iff.rfl

/-- Each of the twenty row blocks of the output is the block of some grid point. -/
theorem point_of_block : ∀ r : Fin 20, ∃ t : Fin cfg2.N, win2_4.index t = ![r.val, 0] :=
  (by decide +kernel : ∀ r : Fin 20, ∃ t : Fin grid2.N, win2_4.index t = ![r.val, 0])

/-- The twenty blocks of 5000 rows cover the output array: row r is in the block of point r / 5000. -/
theorem cover (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  obtain ⟨t, ht⟩ := point_of_block ⟨(i 0).val / 5000, by omega⟩
  have q0 : win2_4.index t (0 : Fin 2) = (i 0).val / 5000 := congrFun ht 0
  have q1 : win2_4.index t (1 : Fin 2) = 0 := congrFun ht 1
  refine ⟨t, flush2_4 t, ?_⟩
  rw [mem_blk]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 64 ≤ (i 1).val ∧ (i 1).val < win2_4.index t (1 : Fin 2) * 64 + 64; omega

/-- The output array after the twenty write-backs: the closed form of the arrays as the region finds them. -/
theorem final (c : Dev nD) :
    (dat2 (F := Ideal) V c).arrAt 4 cfg2.N
      = Cert.Gcn.scaleMM (Cert.Gcn.act (V c main_v42) (V c main_v17) (V c main_v43)) (V c main_arg6) (V c main_v17) :=
  (dat2 (F := Ideal) V c).arrAt_eq_of_cover 4 _ (fun t _ => flushed_eq V c t) cover

end Cert.KernelIdeal.Reg2

end
-- ==== Proof.Reg3.lean ====
/-
  The last layer's closing step, read as one function of whole arrays. The array of summed rows Q (100000 rows of 64)
  is cut into 20 blocks of 5000 rows; at block t the step multiplies row n of the block by the weight D n of node n
  and adds the bias B, entry by entry, and writes the block back to rows 5000 t … 5000 t + 4999 of the result. The
  20 blocks tile the rows, so the result is Q n f * D n + B f at every (n, f).
-/
import proofs.«137642_j58213986729999_2_alg».proof.Proof.Gen.KernelIdeal.Frame
import proofs.«137642_j58213986729999_2_alg».proof.Proof.Spec
import proofs.«137642_j58213986729999_2_alg».proof.Proof.LibRows
import proofs.«137642_j58213986729999_2_alg».proof.Proof.LibCols
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg3

open Idealize.ShloMosaic Idealize.ShloMosaic.TcCoe Idealize.SL.Sem Cert.KernelIdeal Cert.KernelIdeal.Gen
open Idealize.ShloMosaic.ValueIdx

/-- One block's arithmetic at an entry: row p of the block times its weight, plus the bias of column q. -/
theorem payload_apply (x : FVec Ideal S5000x64 .f32) (d : FVec Ideal S5000x1 .f32) (b : FVec Ideal S1x64 .f32)
    (p : Fin 5000) (q : Fin 64) :
    k3_pay1 (F := Ideal) x d b (ix2 p q) = x (ix2 p q) * d (ix2 p (0 : Fin 1)) + b (ix2 (0 : Fin 1) q) := by
  unfold k3_pay1
  rw [addf_apply, mulf_apply, shapeCast_self, shapeCast_self, shapeCast_self]
  rw [Cert.LibCols.broadcastTo_a1_ab_apply, broadcastTo_1b_ab_apply]

/-- The zero offsets of a whole-block access, as the constant function. -/
theorem zero_offsets : (![0, 0] : Fin 2 → Nat) = fun _ => 0 := funext fun a => by fin_cases a <;> rfl

/-- The block indices over the grid: the row-blocked windows sit at block (t, 0), the bias at block (0, 0). -/
theorem block_indices : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Entry (p, q) of block t is entry (5000 t + p, q) of the arrays, the weight's is (5000 t + p, 0), the bias's (0, q):
    the block's arithmetic on the blocks of Q, D, B at point t is the whole-array function at the entry's place. -/
theorem block_entry (Q : S100000x64.Idx → EReal) (D : S100000x1.Idx → EReal) (B : S1x64.Idx → EReal)
    (t : Fin cfg3.N) (p : Fin 5000) (q : Fin 64) :
    Q (((cfg3.win 0).blk t).view.emb (ix2 p q)) * D (((cfg3.win 1).blk t).view.emb (ix2 p (0 : Fin 1)))
        + B (((cfg3.win 2).blk t).view.emb (ix2 (0 : Fin 1) q))
      = Cert.Gcn.lin Q D B (((cfg3.win 3).blk t).view.emb (ix2 p q)) := by
  obtain ⟨e00, e01, e10, e11, e20, e21, e30, e31⟩ := block_indices t
  show _ = Q (((cfg3.win 3).blk t).view.emb (ix2 p q))
          * D (ix2 ((((cfg3.win 3).blk t).view.emb (ix2 p q)) 0) (0 : Fin 1))
        + B (ix2 (0 : Fin 1) ((((cfg3.win 3).blk t).view.emb (ix2 p q)) 1))
  have h0 : ((cfg3.win 0).blk t).view.emb (ix2 p q) = ((cfg3.win 3).blk t).view.emb (ix2 p q) := by
    funext a; apply Fin.ext
    match a with
    | ⟨0, _⟩ => show win3_0.index t (0 : Fin 2) * 5000 + 1 * p.val = win3_3.index t (0 : Fin 2) * 5000 + 1 * p.val; omega
    | ⟨1, _⟩ => show win3_0.index t (1 : Fin 2) * 64 + 1 * q.val = win3_3.index t (1 : Fin 2) * 64 + 1 * q.val; omega
  have h1 : ((cfg3.win 1).blk t).view.emb (ix2 p (0 : Fin 1)) = ix2 ((((cfg3.win 3).blk t).view.emb (ix2 p q)) 0) (0 : Fin 1) := by
    funext a; apply Fin.ext
    match a with
    | ⟨0, _⟩ => show win3_1.index t (0 : Fin 2) * 5000 + 1 * p.val = win3_3.index t (0 : Fin 2) * 5000 + 1 * p.val; omega
    | ⟨1, _⟩ => show win3_1.index t (1 : Fin 2) * 1 + 1 * 0 = 0; omega
  have h2 : ((cfg3.win 2).blk t).view.emb (ix2 (0 : Fin 1) q) = ix2 (0 : Fin 1) ((((cfg3.win 3).blk t).view.emb (ix2 p q)) 1) := by
    funext a; apply Fin.ext
    match a with
    | ⟨0, _⟩ => show win3_2.index t (0 : Fin 2) * 1 + 1 * 0 = 0; omega
    | ⟨1, _⟩ => show win3_2.index t (1 : Fin 2) * 64 + 1 * q.val = win3_3.index t (1 : Fin 2) * 64 + 1 * q.val; omega
  exact congrArg₂ (· + ·) (congrArg₂ (· * ·) (congrArg Q h0) (congrArg D h1)) (congrArg B h2)

/-- WHAT POINT t WRITES BACK: block t of the whole-array function, whatever the region finds in its arrays. -/
theorem flushed_eq (V : (c : Dev nD) → (b : Ref sig .tc) → Buf (Elt Ideal) ((c : Thread nD τ).loc b)) (c : Dev nD) (t : Fin cfg3.N) :
    (dat3 (F := Ideal) V c).flushed 3 t
      = ((cfg3.win 3).blk t).view.read (Elt Ideal) (Cert.Gcn.lin (V c main_v55) (V c main_v17) (V c main_v56)) := by
  show (cfg3.win 3).cut (grid3.coords t) ((dat3 (F := Ideal) V c).after 3 t) = _
  rw [after3_3]
  unfold out3_3
  rw [View.canon_unit_zero zero_offsets]
  simp only [View.ld_unit_zero (S := S5000x64) zero_offsets, View.ld_unit_zero (S := S5000x1) zero_offsets,
    View.ld_unit_zero (S := S1x64) zero_offsets]
  funext j
  obtain ⟨p, q, rfl⟩ : ∃ (p : Fin 5000) (q : Fin 64), j = ix2 p q := ⟨j 0, j 1, eq_ix2 j⟩
  refine (payload_apply (iblk3 V c 0 t) (iblk3 V c 1 t) (iblk3 V c 2 t) p q).trans ?_
  exact block_entry (V c main_v55) (V c main_v17) (V c main_v56) t p q

/-- An index of the result is in point t's block iff each coordinate is in the block's range on its axis. -/
theorem mem_blk (t : Fin cfg3.N) (i : S100000x64.Idx) :
    i ∈ ((cfg3.win 3).blk t).view.set ↔ ∀ a : Fin 2, win3_3.index t a * S5000x64.size a ≤ (i a).val
      ∧ (i a).val < win3_3.index t a * S5000x64.size a + S5000x64.size a := by
  show i ∈ ((View.whole main_v57).slice (win3_3.rect t)).set ↔ _
  rw [View.set_slice_whole, Rect.mem_set_unit]
  exact Iff.rfl

/-- Row r of the result is written by the point r / 5000: the 20 blocks of 5000 rows tile the 100000 rows. -/
theorem cover (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  have hN : cfg3.N = 20 := N_3
  let t : Fin cfg3.N := ⟨(i 0).val / 5000, by rw [hN]; omega⟩
  have ht : t.val = (i 0).val / 5000 := rfl
  obtain ⟨-, -, -, -, -, -, e30, e31⟩ := block_indices t
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 64 ≤ (i 1).val ∧ (i 1).val < win3_3.index t (1 : Fin 2) * 64 + 64; omega

/-- THE RESULT after the 20 write-backs: Q n f * D n + B f at every (n, f), for the arrays Q, D, B the region finds. -/
theorem final (V : (c : Dev nD) → (b : Ref sig .tc) → Buf (Elt Ideal) ((c : Thread nD τ).loc b)) (c : Dev nD) :
    (dat3 (F := Ideal) V c).arrAt 3 cfg3.N = Cert.Gcn.lin (V c main_v55) (V c main_v17) (V c main_v56) :=
  (dat3 (F := Ideal) V c).arrAt_eq_of_cover 3 (Cert.Gcn.lin (V c main_v55) (V c main_v17) (V c main_v56))
    (fun t _ => flushed_eq V c t) cover

end Cert.KernelIdeal.Reg3

end
-- ==== Proof.KWalk.lean ====
/-
  What the buffers of the idealized kernel program hold at the boundaries between its host stretches and its four kernel
  regions, as functions of the eight argument arrays: at each boundary the edge arrays, the weights and the arguments still
  to be read are what they were, each region's result is its closed form of the region's inputs, and each host stretch
  turns a region's result into the next region's input by the gather-and-sum step.
-/
import proofs.«137642_j58213986729999_2_alg».proof.Proof.KHost
import proofs.«137642_j58213986729999_2_alg».proof.Proof.Reg0
import proofs.«137642_j58213986729999_2_alg».proof.Proof.Reg1
import proofs.«137642_j58213986729999_2_alg».proof.Proof.Reg2
import proofs.«137642_j58213986729999_2_alg».proof.Proof.Reg3
import Idealize.ShloMosaic.Lib.StableHlo.Run

set_option maxRecDepth 16384

noncomputable section

namespace Cert.KernelIdeal.KWalk

open Idealize.ShloMosaic Idealize.ShloMosaic.TcCoe Idealize.SL.Sem Idealize.ShloMosaic.StableHlo
open Cert.KernelIdeal Cert.KernelIdeal.Gen Cert.KernelIdeal.KHost

variable (m : (ℓ : Loc nD τ sig) → Buf (Elt Ideal) ℓ) (ρ : Dev nD → PrngReg) (c : Dev nD)

/-! ## At the first region's entry: the edge arrays, the weights, the arguments -/

theorem W3_v3 : W3 m ρ c (Proc.devRef .tc main_v3) = rowV (m ((c : Thread nD τ).loc main_arg1)) := by
  show StableHlo.after hostOps0_2 (StableHlo.after hostOps0_1 (StableHlo.after hostOps0 (W0 m ρ c))) (Proc.devRef .tc main_v3) = _
  after_results
  unfold rowV
  rfl

theorem W3_v6 : W3 m ρ c (Proc.devRef .tc main_v6) = colV (m ((c : Thread nD τ).loc main_arg1)) := by
  show StableHlo.after hostOps0_2 (StableHlo.after hostOps0_1 (StableHlo.after hostOps0 (W0 m ρ c))) (Proc.devRef .tc main_v6) = _
  after_results
  unfold colV
  rfl

/-- After the first stretch: the comparison of the degrees with zero, -/
theorem W1_v12 : W1 m ρ c (Proc.devRef .tc main_v12) = cmpf (F := Ideal) .ogt (deg (m ((c : Thread nD τ).loc main_arg1))) (broadcastInDim S100000 ![] bcast_S_S100000 (constant S_ .f32 0x00000000#32)) := by
  show StableHlo.after hostOps0 (W0 m ρ c) (Proc.devRef .tc main_v12) = _
  after_results
  unfold deg colB colV
  rfl

/-- the inverse square roots of the degrees raised to the floor, -/
theorem W1_v15 : W1 m ρ c (Proc.devRef .tc main_v15) = Host.rsqrt (maximumf (deg (m ((c : Thread nD τ).loc main_arg1))) (broadcastInDim S100000 ![] bcast_S_S100000 (constant S_ .f32 0x2B8CBCCC#32))) := by
  show StableHlo.after hostOps0 (W0 m ρ c) (Proc.devRef .tc main_v15) = _
  after_results
  unfold deg colB colV
  rfl

/-- and the zero the weights take where the degree is not positive. -/
theorem W1_cst_3 : W1 m ρ c (Proc.devRef .tc main_cst_3) = constant (F := Ideal) S_ .f32 0x00000000#32 := by
  show StableHlo.after hostOps0 (W0 m ρ c) (Proc.devRef .tc main_cst_3) = _
  after_results

/-- The select of the two, from any contents. -/
theorem where_of (V : Valuation τ sig (Elt Ideal)) :
    StableHlo.after hostOps0_1 V (Proc.devRef .tc main_v16)
      = select (V (Proc.devRef .tc main_v12)) (V (Proc.devRef .tc main_v15)) (broadcastInDim S100000 ![] bcast_S_S100000 (id (V (Proc.devRef .tc main_cst_3)))) := by
  after_results
  rfl

/-- The weights made a column, from any contents. -/
theorem column_of (V : Valuation τ sig (Elt Ideal)) :
    StableHlo.after hostOps0_2 V (Proc.devRef .tc main_v17) = shapeCast S100000x1 (V (Proc.devRef .tc main_v16)) shapeCasts_S100000_S100000x1 := by
  after_results
  rfl

theorem W3_v17 : W3 m ρ c (Proc.devRef .tc main_v17) = dinv2 (m ((c : Thread nD τ).loc main_arg1)) := by
  show StableHlo.after hostOps0_2 (StableHlo.after hostOps0_1 (W1 m ρ c)) (Proc.devRef .tc main_v17) = _
  rw [column_of, where_of, W1_v12 m ρ c, W1_v15 m ρ c, W1_cst_3 m ρ c]
  unfold dinv2 dinv1
  rfl

theorem W3_arg0 : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  after_results

theorem W3_arg2 : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  after_results

theorem W3_arg3 : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  after_results

theorem W3_arg4 : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  after_results

theorem W3_arg5 : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  after_results

theorem W3_arg6 : W3 m ρ c (Proc.devRef .tc main_arg6) = (m ((c : Thread nD τ).loc main_arg6)) := by
  show StableHlo.after hostOps0_2 (StableHlo.after hostOps0_1 (StableHlo.after hostOps0 (W0 m ρ c))) (Proc.devRef .tc main_arg6) = _
  after_results

theorem W3_arg7 : W3 m ρ c (Proc.devRef .tc main_arg7) = (m ((c : Thread nD τ).loc main_arg7)) := by
  show StableHlo.after hostOps0_2 (StableHlo.after hostOps0_1 (StableHlo.after hostOps0 (W0 m ρ c))) (Proc.devRef .tc main_arg7) = _
  after_results

/-! ## After the first region -/

theorem W4_v3 : W4 m ρ c (Proc.devRef .tc main_v3) = rowV (m ((c : Thread nD τ).loc main_arg1)) := (W4_of_ne m ρ c main_v3 (by decide)).trans (W3_v3 m ρ c)

theorem W4_v6 : W4 m ρ c (Proc.devRef .tc main_v6) = colV (m ((c : Thread nD τ).loc main_arg1)) := (W4_of_ne m ρ c main_v6 (by decide)).trans (W3_v6 m ρ c)

theorem W4_arg3 : W4 m ρ c (Proc.devRef .tc main_arg3) = (m ((c : Thread nD τ).loc main_arg3)) := (W4_of_ne m ρ c main_arg3 (by decide)).trans (W3_arg3 m ρ c)

theorem W4_arg4 : W4 m ρ c (Proc.devRef .tc main_arg4) = (m ((c : Thread nD τ).loc main_arg4)) := (W4_of_ne m ρ c main_arg4 (by decide)).trans (W3_arg4 m ρ c)

theorem W4_arg5 : W4 m ρ c (Proc.devRef .tc main_arg5) = (m ((c : Thread nD τ).loc main_arg5)) := (W4_of_ne m ρ c main_arg5 (by decide)).trans (W3_arg5 m ρ c)

theorem W4_arg6 : W4 m ρ c (Proc.devRef .tc main_arg6) = (m ((c : Thread nD τ).loc main_arg6)) := (W4_of_ne m ρ c main_arg6 (by decide)).trans (W3_arg6 m ρ c)

theorem W4_arg7 : W4 m ρ c (Proc.devRef .tc main_arg7) = (m ((c : Thread nD τ).loc main_arg7)) := (W4_of_ne m ρ c main_arg7 (by decide)).trans (W3_arg7 m ρ c)

theorem W4_v17 : W4 m ρ c (Proc.devRef .tc main_v17) = dinv2 (m ((c : Thread nD τ).loc main_arg1)) := ((W4_arr m ρ c 2).trans (((dat0 (V3 m ρ) c).arrAt_in 2 rfl _).trans (A_eq0 (V3 m ρ) c 2))).trans (W3_v17 m ρ c)

theorem W4_v18 : W4 m ρ c (Proc.devRef .tc main_v18) = Cert.Gcn.scaleMM (m ((c : Thread nD τ).loc main_arg0)) (m ((c : Thread nD τ).loc main_arg2)) (dinv2 (m ((c : Thread nD τ).loc main_arg1))) := by
  refine (W4_arr m ρ c 3).trans ((Cert.KernelIdeal.Reg0.final (V3 m ρ) c).trans ?_)
  show Cert.Gcn.scaleMM (W3 m ρ c (Proc.devRef .tc main_arg0)) (W3 m ρ c (Proc.devRef .tc main_arg2)) (W3 m ρ c (Proc.devRef .tc main_v17)) = _
  rw [W3_arg0 m ρ c, W3_arg2 m ρ c, W3_v17 m ρ c]

/-! ## At the second region's entry -/

theorem W5_v3 : W5 m ρ c (Proc.devRef .tc main_v3) = rowV (m ((c : Thread nD τ).loc main_arg1)) := by
  show StableHlo.after hostOps1 (W4 m ρ c) (Proc.devRef .tc main_v3) = _
  after_results
  exact W4_v3 m ρ c

theorem W5_v6 : W5 m ρ c (Proc.devRef .tc main_v6) = colV (m ((c : Thread nD τ).loc main_arg1)) := by
  show StableHlo.after hostOps1 (W4 m ρ c) (Proc.devRef .tc main_v6) = _
  after_results
  exact W4_v6 m ρ c

theorem W5_v17 : W5 m ρ c (Proc.devRef .tc main_v17) = dinv2 (m ((c : Thread nD τ).loc main_arg1)) := by
  show StableHlo.after hostOps1 (W4 m ρ c) (Proc.devRef .tc main_v17) = _
  after_results
  exact W4_v17 m ρ c

theorem W5_arg4 : W5 m ρ c (Proc.devRef .tc main_arg4) = (m ((c : Thread nD τ).loc main_arg4)) := by
  show StableHlo.after hostOps1 (W4 m ρ c) (Proc.devRef .tc main_arg4) = _
  after_results
  exact W4_arg4 m ρ c

theorem W5_arg5 : W5 m ρ c (Proc.devRef .tc main_arg5) = (m ((c : Thread nD τ).loc main_arg5)) := by
  show StableHlo.after hostOps1 (W4 m ρ c) (Proc.devRef .tc main_arg5) = _
  after_results
  exact W4_arg5 m ρ c

theorem W5_arg6 : W5 m ρ c (Proc.devRef .tc main_arg6) = (m ((c : Thread nD τ).loc main_arg6)) := by
  show StableHlo.after hostOps1 (W4 m ρ c) (Proc.devRef .tc main_arg6) = _
  after_results
  exact W4_arg6 m ρ c

theorem W5_arg7 : W5 m ρ c (Proc.devRef .tc main_arg7) = (m ((c : Thread nD τ).loc main_arg7)) := by
  show StableHlo.after hostOps1 (W4 m ρ c) (Proc.devRef .tc main_arg7) = _
  after_results
  exact W4_arg7 m ρ c

set_option maxHeartbeats 2000000 in
theorem W5_v29 : W5 m ρ c (Proc.devRef .tc main_v29) = step128 (Cert.Gcn.scaleMM (m ((c : Thread nD τ).loc main_arg0)) (m ((c : Thread nD τ).loc main_arg2)) (dinv2 (m ((c : Thread nD τ).loc main_arg1)))) (m ((c : Thread nD τ).loc main_arg1)) := by
  show StableHlo.after hostOps1 (W4 m ρ c) (Proc.devRef .tc main_v29) = _
  after_results_simp
  rw [W4_v3 m ρ c, W4_v6 m ρ c, W4_v18 m ρ c]
  unfold step128 colB rowNB
  rfl

theorem W5_v30 : W5 m ρ c (Proc.devRef .tc main_v30) = brow128 (m ((c : Thread nD τ).loc main_arg3)) := by
  show StableHlo.after hostOps1 (W4 m ρ c) (Proc.devRef .tc main_v30) = _
  after_results
  rw [W4_arg3 m ρ c]
  unfold brow128
  rfl

/-! ## After the second region -/

theorem W6_v3 : W6 m ρ c (Proc.devRef .tc main_v3) = rowV (m ((c : Thread nD τ).loc main_arg1)) := (W6_of_ne m ρ c main_v3 (by decide)).trans (W5_v3 m ρ c)

theorem W6_v6 : W6 m ρ c (Proc.devRef .tc main_v6) = colV (m ((c : Thread nD τ).loc main_arg1)) := (W6_of_ne m ρ c main_v6 (by decide)).trans (W5_v6 m ρ c)

theorem W6_arg5 : W6 m ρ c (Proc.devRef .tc main_arg5) = (m ((c : Thread nD τ).loc main_arg5)) := (W6_of_ne m ρ c main_arg5 (by decide)).trans (W5_arg5 m ρ c)

theorem W6_arg6 : W6 m ρ c (Proc.devRef .tc main_arg6) = (m ((c : Thread nD τ).loc main_arg6)) := (W6_of_ne m ρ c main_arg6 (by decide)).trans (W5_arg6 m ρ c)

theorem W6_arg7 : W6 m ρ c (Proc.devRef .tc main_arg7) = (m ((c : Thread nD τ).loc main_arg7)) := (W6_of_ne m ρ c main_arg7 (by decide)).trans (W5_arg7 m ρ c)

theorem W6_v17 : W6 m ρ c (Proc.devRef .tc main_v17) = dinv2 (m ((c : Thread nD τ).loc main_arg1)) := ((W6_arr m ρ c 1).trans (((dat1 (V5 m ρ) c).arrAt_in 1 rfl _).trans (A_eq1 (V5 m ρ) c 1))).trans (W5_v17 m ρ c)

theorem W6_v31 : W6 m ρ c (Proc.devRef .tc main_v31) = Cert.Gcn.scaleMM (Cert.Gcn.act (step128 (Cert.Gcn.scaleMM (m ((c : Thread nD τ).loc main_arg0)) (m ((c : Thread nD τ).loc main_arg2)) (dinv2 (m ((c : Thread nD τ).loc main_arg1)))) (m ((c : Thread nD τ).loc main_arg1))) (dinv2 (m ((c : Thread nD τ).loc main_arg1))) (brow128 (m ((c : Thread nD τ).loc main_arg3)))) (m ((c : Thread nD τ).loc main_arg4)) (dinv2 (m ((c : Thread nD τ).loc main_arg1))) := by
  refine (W6_arr m ρ c 4).trans ((Cert.KernelIdeal.Reg1.final (V5 m ρ) c).trans ?_)
  show Cert.Gcn.scaleMM (Cert.Gcn.act (W5 m ρ c (Proc.devRef .tc main_v29)) (W5 m ρ c (Proc.devRef .tc main_v17)) (W5 m ρ c (Proc.devRef .tc main_v30))) (W5 m ρ c (Proc.devRef .tc main_arg4)) (W5 m ρ c (Proc.devRef .tc main_v17)) = _
  rw [W5_v29 m ρ c, W5_v17 m ρ c, W5_v30 m ρ c, W5_arg4 m ρ c]

/-! ## At the third region's entry -/

theorem W7_v3 : W7 m ρ c (Proc.devRef .tc main_v3) = rowV (m ((c : Thread nD τ).loc main_arg1)) := by
  show StableHlo.after hostOps2 (W6 m ρ c) (Proc.devRef .tc main_v3) = _
  after_results
  exact W6_v3 m ρ c

theorem W7_v6 : W7 m ρ c (Proc.devRef .tc main_v6) = colV (m ((c : Thread nD τ).loc main_arg1)) := by
  show StableHlo.after hostOps2 (W6 m ρ c) (Proc.devRef .tc main_v6) = _
  after_results
  exact W6_v6 m ρ c

theorem W7_v17 : W7 m ρ c (Proc.devRef .tc main_v17) = dinv2 (m ((c : Thread nD τ).loc main_arg1)) := by
  show StableHlo.after hostOps2 (W6 m ρ c) (Proc.devRef .tc main_v17) = _
  after_results
  exact W6_v17 m ρ c

theorem W7_arg6 : W7 m ρ c (Proc.devRef .tc main_arg6) = (m ((c : Thread nD τ).loc main_arg6)) := by
  show StableHlo.after hostOps2 (W6 m ρ c) (Proc.devRef .tc main_arg6) = _
  after_results
  exact W6_arg6 m ρ c

theorem W7_arg7 : W7 m ρ c (Proc.devRef .tc main_arg7) = (m ((c : Thread nD τ).loc main_arg7)) := by
  show StableHlo.after hostOps2 (W6 m ρ c) (Proc.devRef .tc main_arg7) = _
  after_results
  exact W6_arg7 m ρ c

set_option maxHeartbeats 2000000 in
theorem W7_v42 : W7 m ρ c (Proc.devRef .tc main_v42) = step128 (Cert.Gcn.scaleMM (Cert.Gcn.act (step128 (Cert.Gcn.scaleMM (m ((c : Thread nD τ).loc main_arg0)) (m ((c : Thread nD τ).loc main_arg2)) (dinv2 (m ((c : Thread nD τ).loc main_arg1)))) (m ((c : Thread nD τ).loc main_arg1))) (dinv2 (m ((c : Thread nD τ).loc main_arg1))) (brow128 (m ((c : Thread nD τ).loc main_arg3)))) (m ((c : Thread nD τ).loc main_arg4)) (dinv2 (m ((c : Thread nD τ).loc main_arg1)))) (m ((c : Thread nD τ).loc main_arg1)) := by
  show StableHlo.after hostOps2 (W6 m ρ c) (Proc.devRef .tc main_v42) = _
  after_results_simp
  rw [W6_v3 m ρ c, W6_v6 m ρ c, W6_v31 m ρ c]
  unfold step128 colB rowNB
  rfl

theorem W7_v43 : W7 m ρ c (Proc.devRef .tc main_v43) = brow128 (m ((c : Thread nD τ).loc main_arg5)) := by
  show StableHlo.after hostOps2 (W6 m ρ c) (Proc.devRef .tc main_v43) = _
  after_results
  rw [W6_arg5 m ρ c]
  unfold brow128
  rfl

/-! ## After the third region -/

theorem W8_v3 : W8 m ρ c (Proc.devRef .tc main_v3) = rowV (m ((c : Thread nD τ).loc main_arg1)) := (W8_of_ne m ρ c main_v3 (by decide)).trans (W7_v3 m ρ c)

theorem W8_v6 : W8 m ρ c (Proc.devRef .tc main_v6) = colV (m ((c : Thread nD τ).loc main_arg1)) := (W8_of_ne m ρ c main_v6 (by decide)).trans (W7_v6 m ρ c)

theorem W8_arg7 : W8 m ρ c (Proc.devRef .tc main_arg7) = (m ((c : Thread nD τ).loc main_arg7)) := (W8_of_ne m ρ c main_arg7 (by decide)).trans (W7_arg7 m ρ c)

theorem W8_v17 : W8 m ρ c (Proc.devRef .tc main_v17) = dinv2 (m ((c : Thread nD τ).loc main_arg1)) := ((W8_arr m ρ c 1).trans (((dat2 (V7 m ρ) c).arrAt_in 1 rfl _).trans (A_eq2 (V7 m ρ) c 1))).trans (W7_v17 m ρ c)

theorem W8_v44 : W8 m ρ c (Proc.devRef .tc main_v44) = Cert.Gcn.scaleMM (Cert.Gcn.act (step128 (Cert.Gcn.scaleMM (Cert.Gcn.act (step128 (Cert.Gcn.scaleMM (m ((c : Thread nD τ).loc main_arg0)) (m ((c : Thread nD τ).loc main_arg2)) (dinv2 (m ((c : Thread nD τ).loc main_arg1)))) (m ((c : Thread nD τ).loc main_arg1))) (dinv2 (m ((c : Thread nD τ).loc main_arg1))) (brow128 (m ((c : Thread nD τ).loc main_arg3)))) (m ((c : Thread nD τ).loc main_arg4)) (dinv2 (m ((c : Thread nD τ).loc main_arg1)))) (m ((c : Thread nD τ).loc main_arg1))) (dinv2 (m ((c : Thread nD τ).loc main_arg1))) (brow128 (m ((c : Thread nD τ).loc main_arg5)))) (m ((c : Thread nD τ).loc main_arg6)) (dinv2 (m ((c : Thread nD τ).loc main_arg1))) := by
  refine (W8_arr m ρ c 4).trans ((Cert.KernelIdeal.Reg2.final (V7 m ρ) c).trans ?_)
  show Cert.Gcn.scaleMM (Cert.Gcn.act (W7 m ρ c (Proc.devRef .tc main_v42)) (W7 m ρ c (Proc.devRef .tc main_v17)) (W7 m ρ c (Proc.devRef .tc main_v43))) (W7 m ρ c (Proc.devRef .tc main_arg6)) (W7 m ρ c (Proc.devRef .tc main_v17)) = _
  rw [W7_v42 m ρ c, W7_v17 m ρ c, W7_v43 m ρ c, W7_arg6 m ρ c]

/-! ## At the fourth region's entry -/

theorem W9_v17 : W9 m ρ c (Proc.devRef .tc main_v17) = dinv2 (m ((c : Thread nD τ).loc main_arg1)) := by
  show StableHlo.after hostOps3 (W8 m ρ c) (Proc.devRef .tc main_v17) = _
  after_results
  exact W8_v17 m ρ c

set_option maxHeartbeats 2000000 in
theorem W9_v55 : W9 m ρ c (Proc.devRef .tc main_v55) = step64 (Cert.Gcn.scaleMM (Cert.Gcn.act (step128 (Cert.Gcn.scaleMM (Cert.Gcn.act (step128 (Cert.Gcn.scaleMM (m ((c : Thread nD τ).loc main_arg0)) (m ((c : Thread nD τ).loc main_arg2)) (dinv2 (m ((c : Thread nD τ).loc main_arg1)))) (m ((c : Thread nD τ).loc main_arg1))) (dinv2 (m ((c : Thread nD τ).loc main_arg1))) (brow128 (m ((c : Thread nD τ).loc main_arg3)))) (m ((c : Thread nD τ).loc main_arg4)) (dinv2 (m ((c : Thread nD τ).loc main_arg1)))) (m ((c : Thread nD τ).loc main_arg1))) (dinv2 (m ((c : Thread nD τ).loc main_arg1))) (brow128 (m ((c : Thread nD τ).loc main_arg5)))) (m ((c : Thread nD τ).loc main_arg6)) (dinv2 (m ((c : Thread nD τ).loc main_arg1)))) (m ((c : Thread nD τ).loc main_arg1)) := by
  show StableHlo.after hostOps3 (W8 m ρ c) (Proc.devRef .tc main_v55) = _
  after_results_simp
  rw [W8_v3 m ρ c, W8_v6 m ρ c, W8_v44 m ρ c]
  unfold step64 colB rowNB
  rfl

theorem W9_v56 : W9 m ρ c (Proc.devRef .tc main_v56) = brow64 (m ((c : Thread nD τ).loc main_arg7)) := by
  show StableHlo.after hostOps3 (W8 m ρ c) (Proc.devRef .tc main_v56) = _
  after_results
  rw [W8_arg7 m ρ c]
  unfold brow64
  rfl

/-! ## After the fourth region: the result -/

/-- The result array after the run is the three rounds of the argument arrays. -/
theorem W10_v57 : W10 m ρ c (Proc.devRef .tc main_v57) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W10_arr m ρ c 3).trans ((Cert.KernelIdeal.Reg3.final (V9 m ρ) c).trans ?_)
  show Cert.Gcn.lin (W9 m ρ c (Proc.devRef .tc main_v55)) (W9 m ρ c (Proc.devRef .tc main_v17)) (W9 m ρ c (Proc.devRef .tc main_v56)) = _
  rw [W9_v55 m ρ c, W9_v17 m ρ c, W9_v56 m ρ c]
  unfold result
  rfl

end Cert.KernelIdeal.KWalk

end
-- ==== Proof.RHost.lean ====
/-
  The idealized reference program's result as three graph-convolution layers, each the host's spelling of one function of
  its input features, weights and bias and of the edge argument; and each layer read entry by entry.
-/
import proofs.«137642_j58213986729999_2_alg».proof.Proof.RefRun
import proofs.«137642_j58213986729999_2_alg».proof.Proof.Layer
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.ReferenceIdeal.RHost

open Idealize.ShloMosaic Idealize.ShloMosaic.TcCoe Idealize.SL.Sem Idealize.ShloMosaic.ValueIdx
open Cert.ReferenceIdeal Cert.ReferenceIdeal.Gen

/-- The target word of every edge: row 1 of the edge argument, then one self loop per node. -/
def colV (a1 : IVec S2x1600000 32) : IVec S1700000 32 :=
  concatenate S1700000 0 [⟨S1600000, (shapeCast _ (extractStridedSlice S1x1600000 ![1, 0] a1 slices_S2x1600000_S1x1600000_1_0) shapeCasts_S1x1600000_S1600000)⟩, ⟨S100000, (iotaInDim S100000 32 0)⟩] concatenates_S1600000_S100000_S1700000_d0

/-- The source word of every edge: row 0 of the edge argument, then one self loop per node. -/
def rowV (a1 : IVec S2x1600000 32) : IVec S1700000 32 :=
  concatenate S1700000 0 [⟨S1600000, (shapeCast _ (extractStridedSlice S1x1600000 ![0, 0] a1 slices_S2x1600000_S1x1600000_0_0) shapeCasts_S1x1600000_S1600000)⟩, ⟨S100000, (iotaInDim S100000 32 0)⟩] concatenates_S1600000_S100000_S1700000_d0

/-- The targets as a column of scatter indices. -/
def colB (a1 : IVec S2x1600000 32) : IVec S1700000x1 32 :=
  broadcastInDim S1700000x1 ![0] bcast_S1700000_S1700000x1_0 (colV a1)

/-- The sources, a negative word moved up by the node count, as a column of gather indices. -/
def rowNB (a1 : IVec S2x1600000 32) : IVec S1700000x1 32 :=
  broadcastInDim S1700000x1 ![0] bcast_S1700000_S1700000x1_0
    (select (cmpi .slt (rowV a1) (broadcastInDim S1700000 ![] bcast_S_S1700000 (constantI S_ 32 0#32)))
      (addi (rowV a1) (broadcastInDim S1700000 ![] bcast_S_S1700000 (constantI S_ 32 100000#32))) (rowV a1))

/-- The targets likewise, as a column of gather indices. -/
def colNB (a1 : IVec S2x1600000 32) : IVec S1700000x1 32 :=
  broadcastInDim S1700000x1 ![0] bcast_S1700000_S1700000x1_0
    (select (cmpi .slt (colV a1) (broadcastInDim S1700000 ![] bcast_S_S1700000 (constantI S_ 32 0#32)))
      (addi (colV a1) (broadcastInDim S1700000 ![] bcast_S_S1700000 (constantI S_ 32 100000#32))) (colV a1))

/-- The number of edges landing on each node. -/
def deg (a1 : IVec S2x1600000 32) : FVec Ideal S100000 .f32 :=
  Host.scatterAdd scatter_S100000_S1700000x1_S1700000_n_0_0_1
    (broadcastInDim S100000 ![] bcast_S_S100000 (constant S_ .f32 0x00000000#32)) (colB a1)
    (broadcastInDim S1700000 ![] bcast_S_S1700000 (constant S_ .f32 0x3F800000#32))

/-- The weight of each node: the inverse square root of its degree where that is positive, zero elsewhere. -/
def dinv1 (a1 : IVec S2x1600000 32) : FVec Ideal S100000 .f32 :=
  select (cmpf (F := Ideal) .ogt (deg a1) (broadcastInDim S100000 ![] bcast_S_S100000 (constant S_ .f32 0x00000000#32)))
    (Host.rsqrt (maximumf (deg a1) (broadcastInDim S100000 ![] bcast_S_S100000 (constant S_ .f32 0x2B8CBCCC#32))))
    (broadcastInDim S100000 ![] bcast_S_S100000 (id (constant S_ .f32 0x00000000#32)))

/-- The weight of every edge: the product of its two end points' weights. -/
def norm (a1 : IVec S2x1600000 32) : FVec Ideal S1700000 .f32 :=
  mulf (Host.gather gather_S100000_S1700000x1_S1700000_n_0_n_n_0_1_1 (dinv1 a1) (rowNB a1))
    (Host.gather gather_S100000_S1700000x1_S1700000_n_0_n_n_0_1_1 (dinv1 a1) (colNB a1))

/-- One layer with 128 output features. -/
def conv128 (H : FVec Ideal S100000x128 .f32) (W : FVec Ideal S128x128 .f32) (b : FVec Ideal S128 .f32)
    (a1 : IVec S2x1600000 32) : FVec Ideal S100000x128 .f32 :=
  addf (Host.scatterAdd scatter_S100000x128_S1700000x1_S1700000x128_1_0_0_1 (broadcastInDim S100000x128 ![] bcast_S_S100000x128 (constant S_ .f32 0x00000000#32)) (colB a1) (mulf (Host.gather gather_S100000x128_S1700000x1_S1700000x128_1_0_n_n_0_1_1128 (Host.dotGeneral dot_S100000x128_S128x128_S100000x128_1_0_0_1_n_n none H W) (rowNB a1)) (broadcastInDim S1700000x128 ![0, 1] bcast_S1700000x1_S1700000x128_0_1 (broadcastInDim S1700000x1 ![0] bcast_S1700000_S1700000x1_0 (norm a1))))) (broadcastInDim S100000x128 ![0, 1] bcast_S1x128_S100000x128_0_1 (broadcastInDim S1x128 ![1] bcast_S128_S1x128_1 b))

/-- The last layer, with 64 output features. -/
def conv64 (H : FVec Ideal S100000x128 .f32) (W : FVec Ideal S128x64 .f32) (b : FVec Ideal S64 .f32)
    (a1 : IVec S2x1600000 32) : FVec Ideal S100000x64 .f32 :=
  addf (Host.scatterAdd scatter_S100000x64_S1700000x1_S1700000x64_1_0_0_1 (broadcastInDim S100000x64 ![] bcast_S_S100000x64 (constant S_ .f32 0x00000000#32)) (colB a1) (mulf (Host.gather gather_S100000x64_S1700000x1_S1700000x64_1_0_n_n_0_1_164 (Host.dotGeneral dot_S100000x128_S128x64_S100000x64_1_0_0_1_n_n none H W) (rowNB a1)) (broadcastInDim S1700000x64 ![0, 1] bcast_S1700000x1_S1700000x64_0_1 (broadcastInDim S1700000x1 ![0] bcast_S1700000_S1700000x1_0 (norm a1))))) (broadcastInDim S100000x64 ![0, 1] bcast_S1x64_S100000x64_0_1 (broadcastInDim S1x64 ![1] bcast_S64_S1x64_1 b))

/-- The rectifier between layers. -/
def relu (Y : FVec Ideal S100000x128 .f32) : FVec Ideal S100000x128 .f32 :=
  maximumf Y (broadcastInDim S100000x128 ![] bcast_S_S100000x128 (constant S_ .f32 0x00000000#32))

/-- The program's result is the three layers composed. -/
theorem res_eq (m : (ℓ : Loc nD τ sig) → Buf (Elt Ideal) ℓ) (c : Dev nD) :
    Cert.ReferenceIdeal.ValueP.res_main_v148 (F := Ideal) m c
      = conv64 (relu (conv128 (relu (conv128 (m ((c.tc : Thread nD τ).loc main_arg0)) (m ((c.tc : Thread nD τ).loc main_arg2))
            (m ((c.tc : Thread nD τ).loc main_arg3)) (m ((c.tc : Thread nD τ).loc main_arg1))))
          (m ((c.tc : Thread nD τ).loc main_arg4)) (m ((c.tc : Thread nD τ).loc main_arg5)) (m ((c.tc : Thread nD τ).loc main_arg1))))
        (m ((c.tc : Thread nD τ).loc main_arg6)) (m ((c.tc : Thread nD τ).loc main_arg7)) (m ((c.tc : Thread nD τ).loc main_arg1)) := by
  unfold Cert.ReferenceIdeal.ValueP.res_main_v148 conv64 conv128 relu norm dinv1 deg colNB rowNB colB colV rowV
  rfl

theorem hN : 0 < 100000 := by decide

theorem zeros_apply {s : Shape} (h : (S_ : Shape).BroadcastsInDim s ![]) (i : s.Idx) :
    broadcastInDim s ![] h (constant (F := Ideal) S_ .f32 0x00000000#32) i = Ideal.ofBits .f32 0x00000000#32 := by
  rw [Cert.LibRows.scalarInDim_apply]; rfl

/-- A 128-feature layer, entry by entry. -/
theorem conv128_eq (H : FVec Ideal S100000x128 .f32) (W : FVec Ideal S128x128 .f32) (b : FVec Ideal S128 .f32)
    (a1 : IVec S2x1600000 32) :
    conv128 H W b a1 = Cert.Layer.refLayer (N := 100000) (E := 1700000) (K := 128) (C := 128) hN H W b (dinv1 a1) (rowNB a1) (colNB a1) (colB a1) :=
  Cert.Layer.refLayer_eq hN scatter_S100000x128_S1700000x1_S1700000x128_1_0_0_1.wf gather_S100000x128_S1700000x1_S1700000x128_1_0_n_n_0_1_1128.wf
    gather_S100000_S1700000x1_S1700000_n_0_n_n_0_1_1.wf dot_S100000x128_S128x128_S100000x128_1_0_0_1_n_n rfl _ (zeros_apply _)
    H W b (dinv1 a1) (rowNB a1) (colNB a1) (colB a1) _ _ _ _

/-- The 64-feature layer, entry by entry. -/
theorem conv64_eq (H : FVec Ideal S100000x128 .f32) (W : FVec Ideal S128x64 .f32) (b : FVec Ideal S64 .f32)
    (a1 : IVec S2x1600000 32) :
    conv64 H W b a1 = Cert.Layer.refLayer (N := 100000) (E := 1700000) (K := 128) (C := 64) hN H W b (dinv1 a1) (rowNB a1) (colNB a1) (colB a1) :=
  Cert.Layer.refLayer_eq hN scatter_S100000x64_S1700000x1_S1700000x64_1_0_0_1.wf gather_S100000x64_S1700000x1_S1700000x64_1_0_n_n_0_1_164.wf
    gather_S100000_S1700000x1_S1700000_n_0_n_n_0_1_1.wf dot_S100000x128_S128x64_S100000x64_1_0_0_1_n_n rfl _ (zeros_apply _)
    H W b (dinv1 a1) (rowNB a1) (colNB a1) (colB a1) _ _ _ _

end Cert.ReferenceIdeal.RHost

end
-- ==== Proof.RWeights.lean ====
/-
  Two facts about the edge argument's derived arrays. The weight of a node is the inverse square root of the larger
  of its degree and a fixed positive number where the degree is positive, and zero elsewhere: whatever the degree, it
  is an extended real that is neither negative nor +∞. And an edge whose target word reads, signed, as the number of
  a node names that very node after the sign normalisation and the clamp into the node range.
-/
import proofs.«137642_j58213986729999_2_alg».proof.Proof.RHost
import proofs.«137642_j58213986729999_2_alg».proof.Proof.Layer
import proofs.«137642_j58213986729999_2_alg».proof.Proof.LibRowGather
import proofs.«137642_j58213986729999_2_alg».proof.Proof.LibRows
import proofs.«137642_j58213986729999_2_alg».proof.Proof.LibCols
import Idealize.ShloMosaic.PureOps.Ideal
import Idealize.ShloMosaic.PureOps.Ideal.Laws
import Idealize.ShloMosaic.Lib.ValueIdx

set_option maxRecDepth 16384

noncomputable section

namespace Cert.ReferenceIdeal.RWeights

open Cert.ReferenceIdeal.RHost Idealize.ShloMosaic Idealize.ShloMosaic.ValueIdx

/-- The inverse square root of a positive extended real is a nonnegative real, or zero at +∞. -/
theorem rsqrt_bounds (x : EReal) (hx : 0 < x) : 0 ≤ Ideal.rsqrt x ∧ Ideal.rsqrt x ≠ ⊤ := by
  induction x using EReal.rec with
  | bot => exact absurd hx (not_lt_bot)
  | top => rw [Ideal.rsqrt_top]; exact ⟨le_refl 0, EReal.zero_ne_top⟩
  | coe r =>
    have hr : 0 < r := by exact_mod_cast hx
    rw [Ideal.rsqrt_coe, if_neg (not_lt.mpr hr.le), if_neg hr.ne']
    exact ⟨by exact_mod_cast inv_nonneg.mpr (Real.sqrt_nonneg r), EReal.coe_ne_top _⟩

/-- The floor under the degree is a positive number. -/
theorem floor_pos : (0 : EReal) < Ideal.ofBits .f32 0x2B8CBCCC#32 := by
  simp [Ideal.ofBits, Ideal.ieee]
  rw [← EReal.coe_mul, EReal.coe_pos]
  positivity

/-- A word that reads, signed, as a natural number is not below zero in the signed order. -/
theorem slt_zero_of_toInt (v : BitVec 32) (n : Nat) (h : v.toInt = (n : Int)) : IntOp.cmpi .slt v 0#32 = 0#1 := by
  show BitVec.ofBool (v.slt 0#32) = 0#1
  have : v.slt 0#32 = false := by
    simp only [BitVec.slt, h, BitVec.toInt_zero]
    exact decide_eq_false (by omega)
  rw [this]; rfl

/-- The weight as a function of the degree alone: neither negative nor +∞, whatever the degree. -/
theorem weight_bounds (y : EReal) :
    0 ≤ Scalar.select (Ideal.cmp .ogt y (Ideal.ofBits .f32 0x00000000#32))
          (Ideal.rsqrt (max y (Ideal.ofBits .f32 0x2B8CBCCC#32))) (Ideal.ofBits .f32 0x00000000#32)
      ∧ Scalar.select (Ideal.cmp .ogt y (Ideal.ofBits .f32 0x00000000#32))
          (Ideal.rsqrt (max y (Ideal.ofBits .f32 0x2B8CBCCC#32))) (Ideal.ofBits .f32 0x00000000#32) ≠ ⊤ := by
  unfold Scalar.select
  split
  · exact rsqrt_bounds _ (lt_of_lt_of_le floor_pos (le_max_right _ _))
  · rw [Ideal.ofBits_zero_f32]; exact ⟨le_refl 0, EReal.zero_ne_top⟩

/-- The weight array read at a node, for any array of degrees: the scalar formula at the node's degree. -/
theorem weight_apply (d : FVec Ideal S100000 .f32) (h0 h1 h2 : (S_ : Shape).BroadcastsInDim S100000 ![]) (n : Fin 100000) :
    select (cmpf (F := Ideal) .ogt d (broadcastInDim S100000 ![] h0 (constant S_ .f32 0x00000000#32)))
        (Host.rsqrt (maximumf d (broadcastInDim S100000 ![] h1 (constant S_ .f32 0x2B8CBCCC#32))))
        (broadcastInDim S100000 ![] h2 (id (constant S_ .f32 0x00000000#32))) (ix1 n)
      = Scalar.select (Ideal.cmp .ogt (d (ix1 n)) (Ideal.ofBits .f32 0x00000000#32))
          (Ideal.rsqrt (max (d (ix1 n)) (Ideal.ofBits .f32 0x2B8CBCCC#32))) (Ideal.ofBits .f32 0x00000000#32) := by
  show Scalar.select (Ideal.cmp .ogt (d (ix1 n)) (broadcastInDim S100000 ![] h0 (constant (F := Ideal) S_ .f32 0x00000000#32) (ix1 n)))
        (Ideal.rsqrt (max (d (ix1 n)) (broadcastInDim S100000 ![] h1 (constant (F := Ideal) S_ .f32 0x2B8CBCCC#32) (ix1 n))))
        (broadcastInDim S100000 ![] h2 (id (constant (F := Ideal) S_ .f32 0x00000000#32)) (ix1 n)) = _
  rw [Cert.LibRows.scalarInDim_apply, Cert.LibRows.scalarInDim_apply, Cert.LibRows.scalarInDim_apply]
  rfl

/-- THE NODE WEIGHTS: at every node the weight is neither negative nor +∞. -/
theorem dinv1_bounds (a1 : IVec S2x1600000 32) (n : Fin 100000) :
    0 ≤ dinv1 a1 (ix1 n) ∧ dinv1 a1 (ix1 n) ≠ ⊤ := by
  have e : dinv1 a1 (ix1 n)
      = Scalar.select (Ideal.cmp .ogt (deg a1 (ix1 n)) (Ideal.ofBits .f32 0x00000000#32))
          (Ideal.rsqrt (max (deg a1 (ix1 n)) (Ideal.ofBits .f32 0x2B8CBCCC#32))) (Ideal.ofBits .f32 0x00000000#32) := by
    unfold dinv1
    exact weight_apply (deg a1) _ _ _ n
  rw [e]
  exact weight_bounds _

/-- The sign-normalised word array read at an entry, for any array of words. -/
theorem normalised_apply (v : IVec S1700000 32) (h0 h1 : (S_ : Shape).BroadcastsInDim S1700000 ![]) (e : Fin 1700000) :
    select (cmpi .slt v (broadcastInDim S1700000 ![] h0 (constantI S_ 32 0#32)))
        (addi v (broadcastInDim S1700000 ![] h1 (constantI S_ 32 100000#32))) v (ix1 e)
      = Scalar.select (IntOp.cmpi .slt (v (ix1 e)) 0#32) (IntOp.addi (v (ix1 e)) 100000#32) (v (ix1 e)) := by
  show Scalar.select (IntOp.cmpi .slt (v (ix1 e)) (broadcastInDim S1700000 ![] h0 (constantI S_ 32 0#32) (ix1 e)))
        (IntOp.addi (v (ix1 e)) (broadcastInDim S1700000 ![] h1 (constantI S_ 32 100000#32) (ix1 e))) (v (ix1 e)) = _
  rw [Cert.LibRows.scalarInDim_apply, Cert.LibRows.scalarInDim_apply]
  rfl

/-- THE LANDING NODE: an edge whose target word reads as node n names n as its clamped, sign-normalised target. -/
theorem landed_node (a1 : IVec S2x1600000 32) (e : Fin 1700000) (n : Fin 100000)
    (h : (colB a1 (ix2 e (0 : Fin 1))).toInt = (n.val : Int)) : Cert.Layer.node RHost.hN (colNB a1) e = n := by
  have hB : colB a1 (ix2 e (0 : Fin 1)) = colV a1 (ix1 e) := by
    unfold colB; exact Cert.LibCols.inDim_a_a1_apply _ _ e 0
  have hNB : colNB a1 (ix2 e (0 : Fin 1))
      = Scalar.select (IntOp.cmpi .slt (colV a1 (ix1 e)) 0#32) (IntOp.addi (colV a1 (ix1 e)) 100000#32) (colV a1 (ix1 e)) := by
    unfold colNB
    rw [Cert.LibCols.inDim_a_a1_apply]
    exact normalised_apply (colV a1) _ _ e
  rw [hB] at h
  apply Fin.ext
  show Cert.LibRowGather.clampIdx (colNB a1 (ix2 e (0 : Fin 1))) 100000 = n.val
  rw [hNB]
  generalize colV a1 (ix1 e) = v at h
  rw [slt_zero_of_toInt v n.val h, select_zero]
  exact Cert.LibRowGather.clampIdx_of_toInt v n.isLt h

end Cert.ReferenceIdeal.RWeights

end
-- ==== Proof.Bridge.lean ====
/-
  The two programs compute the same three graph-convolution layers. They spell the edge index arrays and the per-node
  weights identically, so those agree as they stand. In each layer the reference weights every gathered product row by
  the product of its two end points' weights and sums over the edges landing on a node; the kernel program weights the
  product rows by the source's weight before the gather and the sum by the target's weight after it. A node weight is
  neither negative nor +∞, so it distributes over the finite sum, and the target of an edge landing on node n is n:
  the two arrangements of a layer are equal (the law of one layer), and cutting a layer off below at zero is the same
  function on both sides. Three layers, rewritten from the inside out.
-/
import proofs.«137642_j58213986729999_2_alg».proof.Proof.KHost
import proofs.«137642_j58213986729999_2_alg».proof.Proof.RHost
import proofs.«137642_j58213986729999_2_alg».proof.Proof.RWeights
import proofs.«137642_j58213986729999_2_alg».proof.Proof.Layer
import Idealize.ShloMosaic.Lib.ValueIdx
import Idealize.ShloMosaic.Lib.ValueLayout

set_option maxRecDepth 16384

noncomputable section

namespace Cert.Bridge

open Idealize.ShloMosaic Idealize.ShloMosaic.ValueIdx
open Cert.KernelIdeal (KHost.colB KHost.colV KHost.rowNB KHost.rowV KHost.dinv1 KHost.dinv2 KHost.deg KHost.brow128 KHost.brow64
  KHost.step128 KHost.step64 KHost.step128_eq KHost.step64_eq KHost.result KHost.hN)
open Cert.ReferenceIdeal (RHost.colB RHost.colV RHost.colNB RHost.rowNB RHost.rowV RHost.dinv1 RHost.deg RHost.conv128 RHost.conv64
  RHost.relu RHost.conv128_eq RHost.conv64_eq RHost.zeros_apply RHost.hN)

/-! ## The edge arrays and the node weights are spelt the same in the two programs -/

/-- The edges' targets, as scatter indices, are the same array in the two programs. -/
theorem colB_eq (a1 : IVec ⟨2, ![2, 1600000]⟩ 32) : KHost.colB a1 = RHost.colB a1 := by
  unfold KHost.colB RHost.colB KHost.colV RHost.colV
  rfl

/-- The edges' sources, as gather indices, are the same array in the two programs. -/
theorem rowNB_eq (a1 : IVec ⟨2, ![2, 1600000]⟩ 32) : KHost.rowNB a1 = RHost.rowNB a1 := by
  unfold KHost.rowNB RHost.rowNB KHost.rowV RHost.rowV
  rfl

/-- The node weights are the same array in the two programs. -/
theorem dinv1_eq (a1 : IVec ⟨2, ![2, 1600000]⟩ 32) : KHost.dinv1 a1 = RHost.dinv1 a1 := by
  unfold KHost.dinv1 RHost.dinv1 KHost.deg RHost.deg
  rw [colB_eq]
  rfl

/-- The column of node weights reads, at row n, the weight of node n. -/
theorem dinv2_apply (a1 : IVec ⟨2, ![2, 1600000]⟩ 32) (n : Fin 100000) :
    KHost.dinv2 a1 (ix2 n (0 : Fin 1)) = RHost.dinv1 a1 (ix1 n) := by
  unfold KHost.dinv2
  rw [Cert.LibCols.shapeCast_a_a1_apply, dinv1_eq]

/-- A 128-entry bias made a row reads, at column f, the bias of feature f. -/
theorem brow128_apply (b : FVec Ideal ⟨1, ![128]⟩ .f32) (f : Fin 128) : KHost.brow128 b (ix2 (0 : Fin 1) f) = b (ix1 f) := by
  unfold KHost.brow128
  rw [shapeCast_a_1a_apply]

/-- A 64-entry bias made a row reads, at column f, the bias of feature f. -/
theorem brow64_apply (b : FVec Ideal ⟨1, ![64]⟩ .f32) (f : Fin 64) : KHost.brow64 b (ix2 (0 : Fin 1) f) = b (ix1 f) := by
  unfold KHost.brow64
  rw [shapeCast_a_1a_apply]

/-- Cutting "weighted sum plus bias" off below at the zero word is the rectified layer of the specification. -/
theorem relu_lin (Q : FVec Ideal ⟨2, ![100000, 128]⟩ .f32) (D : FVec Ideal ⟨2, ![100000, 1]⟩ .f32)
    (B : FVec Ideal ⟨2, ![1, 128]⟩ .f32) : RHost.relu (Cert.Gcn.lin Q D B) = Cert.Gcn.act Q D B := by
  funext i
  unfold RHost.relu
  rw [maximumf_apply, RHost.zeros_apply]
  rfl

/-! ## One layer, then three -/

/-- A 128-feature layer of the reference is the kernel program's arrangement of it. -/
theorem layer128 (H : FVec Ideal ⟨2, ![100000, 128]⟩ .f32) (W : FVec Ideal ⟨2, ![128, 128]⟩ .f32)
    (b : FVec Ideal ⟨1, ![128]⟩ .f32) (a1 : IVec ⟨2, ![2, 1600000]⟩ 32) :
    RHost.conv128 H W b a1
      = Cert.Gcn.lin (KHost.step128 (Cert.Gcn.scaleMM H W (KHost.dinv2 a1)) a1) (KHost.dinv2 a1) (KHost.brow128 b) := by
  rw [RHost.conv128_eq, KHost.step128_eq, colB_eq, rowNB_eq]
  exact Cert.Layer.refLayer_eq_lin RHost.hN H W b (RHost.dinv1 a1) (KHost.dinv2 a1) (KHost.brow128 b) (RHost.rowNB a1)
    (RHost.colNB a1) (RHost.colB a1) (dinv2_apply a1) (brow128_apply b) (fun n => (Cert.ReferenceIdeal.RWeights.dinv1_bounds a1 n).1) (fun n => (Cert.ReferenceIdeal.RWeights.dinv1_bounds a1 n).2)
    (Cert.ReferenceIdeal.RWeights.landed_node a1)

/-- The 64-feature layer of the reference is the kernel program's arrangement of it. -/
theorem layer64 (H : FVec Ideal ⟨2, ![100000, 128]⟩ .f32) (W : FVec Ideal ⟨2, ![128, 64]⟩ .f32)
    (b : FVec Ideal ⟨1, ![64]⟩ .f32) (a1 : IVec ⟨2, ![2, 1600000]⟩ 32) :
    RHost.conv64 H W b a1
      = Cert.Gcn.lin (KHost.step64 (Cert.Gcn.scaleMM H W (KHost.dinv2 a1)) a1) (KHost.dinv2 a1) (KHost.brow64 b) := by
  rw [RHost.conv64_eq, KHost.step64_eq, colB_eq, rowNB_eq]
  exact Cert.Layer.refLayer_eq_lin RHost.hN H W b (RHost.dinv1 a1) (KHost.dinv2 a1) (KHost.brow64 b) (RHost.rowNB a1)
    (RHost.colNB a1) (RHost.colB a1) (dinv2_apply a1) (brow64_apply b) (fun n => (Cert.ReferenceIdeal.RWeights.dinv1_bounds a1 n).1) (fun n => (Cert.ReferenceIdeal.RWeights.dinv1_bounds a1 n).2)
    (Cert.ReferenceIdeal.RWeights.landed_node a1)

/-- The kernel program's result is the reference's three layers composed. -/
theorem result_eq (x : FVec Ideal ⟨2, ![100000, 128]⟩ .f32) (a1 : IVec ⟨2, ![2, 1600000]⟩ 32)
    (w1 : FVec Ideal ⟨2, ![128, 128]⟩ .f32) (b1 : FVec Ideal ⟨1, ![128]⟩ .f32)
    (w2 : FVec Ideal ⟨2, ![128, 128]⟩ .f32) (b2 : FVec Ideal ⟨1, ![128]⟩ .f32)
    (w3 : FVec Ideal ⟨2, ![128, 64]⟩ .f32) (b3 : FVec Ideal ⟨1, ![64]⟩ .f32) :
    Cert.KernelIdeal.KHost.result x a1 w1 b1 w2 b2 w3 b3
      = Cert.ReferenceIdeal.RHost.conv64 (Cert.ReferenceIdeal.RHost.relu (Cert.ReferenceIdeal.RHost.conv128
          (Cert.ReferenceIdeal.RHost.relu (Cert.ReferenceIdeal.RHost.conv128 x w1 b1 a1)) w2 b2 a1)) w3 b3 a1 := by
  unfold Cert.KernelIdeal.KHost.result
  rw [layer128 x w1 b1 a1, relu_lin, layer128 _ w2 b2 a1, relu_lin, layer64 _ w3 b3 a1]

end Cert.Bridge

end
-- ==== Proof.lean ====
/-
  The certificate of a three-layer graph convolution: a kernel program of four regions against a plain reference.

  Each layer multiplies the node features by a weight matrix, sums over the edges landing on every node the product's rows at
  the edges' sources weighted by the inverse square roots of the two end points' degrees, and adds a bias; the first two
  layers are followed by a rectifier. The kernel program weights the product's rows by the source's weight inside its
  regions before the rows are gathered, and the summed rows by the target's weight in the next region; the reference weights
  each gathered row by the product of the two weights. On the extended reals the two agree: a weight is a nonnegative
  number that is not +∞, so it distributes over the finite sum of the rows, and the product of extended reals is
  associative; a matrix product on the matrix unit into a zero accumulator and the host's are the same sum, and a change
  of float format is the identity. The frames of the two kernel programs are the generated ones; the reference's frame and
  run are its generated run; what each kernel region leaves in its result array is read off the regions' proof data
  (the modules Reg0 to Reg3), carried through the host stretches (KWalk), and joined to the reference's three layers
  (Bridge, over the law of one layer in Layer).
-/
import proofs.«137642_j58213986729999_2_alg».proof.Defs
import proofs.«137642_j58213986729999_2_alg».proof.Proof.Gen.Kernel
import proofs.«137642_j58213986729999_2_alg».proof.Proof.Gen.Kernel.Skeleton
import proofs.«137642_j58213986729999_2_alg».proof.Proof.Gen.Kernel.Launch
import proofs.«137642_j58213986729999_2_alg».proof.Proof.Gen.Kernel.Points
import proofs.«137642_j58213986729999_2_alg».proof.Proof.Gen.Kernel.Frame
import proofs.«137642_j58213986729999_2_alg».proof.Proof.Gen.KernelIdeal
import proofs.«137642_j58213986729999_2_alg».proof.Proof.Gen.KernelIdeal.Skeleton
import proofs.«137642_j58213986729999_2_alg».proof.Proof.Gen.KernelIdeal.Launch
import proofs.«137642_j58213986729999_2_alg».proof.Proof.Gen.KernelIdeal.Points
import proofs.«137642_j58213986729999_2_alg».proof.Proof.Gen.KernelIdeal.Frame
import proofs.«137642_j58213986729999_2_alg».proof.Proof.Gen.ReferenceIdeal
import proofs.«137642_j58213986729999_2_alg».proof.Proof.Gen.Pre_finite_inputs
import proofs.«137642_j58213986729999_2_alg».proof.Proof.KRun
import proofs.«137642_j58213986729999_2_alg».proof.Proof.KWalk
import proofs.«137642_j58213986729999_2_alg».proof.Proof.RefRun
import proofs.«137642_j58213986729999_2_alg».proof.Proof.RHost
import proofs.«137642_j58213986729999_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- Both programs end with the result array at the three layers of the argument arrays. -/
theorem algebraic : Cert.algebraic_KernelIdeal_ReferenceIdeal := by
  intro m ρ m' ρ' _ hagree
  refine ⟨fun c => Cert.KernelIdeal.KHost.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.KWalk.W10_v57 m ρ c), (h c).2⟩)
      (Cert.KernelIdeal.GenP.run_result (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6, h7⟩ := hagree c
    rw [Cert.ReferenceIdeal.RHost.res_eq, h0, h1, h2, h3, h4, h5, h6, h7]
    exact (Cert.Bridge.result_eq _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
